-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x2048 : Shape := ⟨2, ![32768, 2048]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S2048x1 .f32) (main_arg12 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1 .f32 := Host.absf main_arg11
  let main_cst_20 : FVec F S_ .f32 := constant S_ .f32 0x7F800000#32
  let main_v55 : FVec F S2048x1 .f32 := broadcastInDim S2048x1 ![] bcast_S_S2048x1 main_cst_20
  let main_v56 : IVec S2048x1 1 := cmpf .olt main_v54 main_v55
  let main_c_21 : IVec S_ 1 := constantI S_ 1 1#1
  let main_v57 : IVec S_ 1 := (fun x v => Host.reduce IntOp.andi x v reducesTo_S2048x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2048 .f32) (main_arg8 : FVec F S128x2048 .f32) (main_arg9 : FVec F S2048x2048 .f32) (main_arg10 : FVec F S2048 .f32) (main_arg11 : FVec F S2048x1 .f32) (main_arg12 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S128x2048 .f32) (main_arg6 : FVec F S2048x2048 .f32) (main_arg7 : FVec F S2048 .f32) (main_arg8 : FVec F S128x2048 .f32) (main_arg9 : FVec F S2048x2048 .f32) (main_arg10 : FVec F S2048 .f32) (main_arg11 : FVec F S2048x1 .f32) (main_arg12 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x128 .f32) (main_arg1 : FVec F S32768x2048 .f32) (main_arg2 : FVec F S128x2048 .f32) (main_arg3 : FVec F S2048x2048 .f32) (main_arg4 : FVec F S2048 .f32) (main_arg5 : FVec F S128x2048 .f32) (main_arg6 : FVec F S2048x2048 .f32) (main_arg7 : FVec F S2048 .f32) (main_arg8 : FVec F S128x2048 .f32) (main_arg9 : FVec F S2048x2048 .f32) (main_arg10 : FVec F S2048 .f32) (main_arg11 : FVec F S2048x1 .f32) (main_arg12 : FVec F S1 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S32768x128 : Shape := ⟨2, ![32768, 128]⟩
abbrev S32768x2048 : Shape := ⟨2, ![32768, 2048]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S128x6144 : Shape := ⟨2, ![128, 6144]⟩
abbrev S2048x4096 : Shape := ⟨2, ![2048, 4096]⟩
abbrev S1x2048 : Shape := ⟨2, ![1, 2048]⟩
abbrev S1x1 : Shape := ⟨2, ![1, 1]⟩
abbrev S32768x1 : Shape := ⟨2, ![32768, 1]⟩
abbrev S128x128 : Shape := ⟨2, ![128, 128]⟩
abbrev S128x1 : Shape := ⟨2, ![128, 1]⟩
abbrev S128x4096 : Shape := ⟨2, ![128, 4096]⟩
abbrev S128 : Shape := ⟨1, ![128]⟩

abbrev nBuf : Space → Nat
  | .hbm => 25
  | .vmem => 14
  | .smem => 0
  | _ => 0

abbrev bufTy : (tb : Table) → Fin (tcTables nBuf tb) → BufTy
  | .hbm, ⟨0, _⟩ => ⟨S32768x128, .f32⟩
  | .hbm, ⟨1, _⟩ => ⟨S32768x2048, .f32⟩
  | .hbm, ⟨2, _⟩ => ⟨S128x2048, .f32⟩
  | .hbm, ⟨3, _⟩ => ⟨S2048x2048, .f32⟩
  | .hbm, ⟨4, _⟩ => ⟨S2048, .f32⟩
  | .hbm, ⟨5, _⟩ => ⟨S128x2048, .f32⟩
  | .hbm, ⟨6, _⟩ => ⟨S2048x2048, .f32⟩
  | .hbm, ⟨7, _⟩ => ⟨S2048, .f32⟩
  | .hbm, ⟨8, _⟩ => ⟨S128x2048, .f32⟩
  | .hbm, ⟨9, _⟩ => ⟨S2048x2048, .f32⟩
  | .hbm, ⟨10, _⟩ => ⟨S2048, .f32⟩
  | .hbm, ⟨11, _⟩ => ⟨S2048x1, .f32⟩
  | .hbm, ⟨12, _⟩ => ⟨S1, .f32⟩
  | .hbm, ⟨13, _⟩ => ⟨S32768x128, .bf16⟩
  | .hbm, ⟨14, _⟩ => ⟨S128x6144, .f32⟩
  | .hbm, ⟨15, _⟩ => ⟨S128x6144, .bf16⟩
  | .hbm, ⟨16, _⟩ => ⟨S2048x4096, .f32⟩
  | .hbm, ⟨17, _⟩ => ⟨S2048x4096, .bf16⟩
  | .hbm, ⟨18, _⟩ => ⟨S2048x2048, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x1, .f32⟩
  | .hbm, ⟨24, _⟩ => ⟨S32768x1, .f32⟩
  | .local _ .vmem, ⟨0, _⟩ => ⟨S128x128, .bf16⟩
  | .local _ .vmem, ⟨1, _⟩ => ⟨S128x128, .bf16⟩
  | .local _ .vmem, ⟨2, _⟩ => ⟨S128x2048, .f32⟩
  | .local _ .vmem, ⟨3, _⟩ => ⟨S128x2048, .f32⟩
  | .local _ .vmem, ⟨4, _⟩ => ⟨S128x6144, .bf16⟩
  | .local _ .vmem, ⟨5, _⟩ => ⟨S2048x4096, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x1, .f32⟩
  | .local _ .vmem, ⟨12, _⟩ => ⟨S128x1, .f32⟩
  | .local _ .vmem, ⟨13, _⟩ => ⟨S128x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  concatenates_S128x2048_S128x2048_S128x2048_S128x6144_d1 : Shape.Concatenates [S128x2048, S128x2048, S128x2048] S128x6144 1
  concatenates_S2048x2048_S2048x2048_S2048x4096_d1 : Shape.Concatenates [S2048x2048, S2048x2048] S2048x4096 1
  shapeCasts_S2048_S1x2048 : S2048.ShapeCasts S1x2048
  shapeCasts_S2048x1_S1x2048 : S2048x1.ShapeCasts S1x2048
  shapeCasts_S1_S1x1 : S1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2048_S128x2048_0_0 : ∀ a, (![0, 0] : Fin 2 → Nat) a + S128x2048.size a ≤ S128x2048.size a
  h_S128x2048 : 0 < S128x2048.numel
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  slices_S128x4096_o0_0_S128x2048 : S128x4096.Slices ![0, 0] S128x2048
  slices_S128x4096_o0_2048_S128x2048 : S128x4096.Slices ![0, 2048] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S128x2048_S128 : S128x2048.Reduces [1] S128
  shapeCasts_S128_S128x1 : S128.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S128x128_S128x6144_S128x6144_1_0_0_1_n_n_wf : DotDims.WF S128x128 S128x6144 S128x6144 [1] [0] [0] [1] [] []
  dot_S128x2048_S2048x4096_S128x4096_1_0_0_1_n_n_wf : DotDims.WF S128x2048 S2048x4096 S128x4096 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S32768x128.size a
  hwx0_0 : ∀ i : grid0.Coords, EltTy.bits .bf16 = 32 ∨ (Rect.block (s := S32768x128) S128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S32768x2048.size a
  hwx0_1 : ∀ i : grid0.Coords, EltTy.bits .f32 = 32 ∨ (Rect.block (s := S32768x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x6144.size a ≤ S128x6144.size a
  hwx0_2 : ∀ i : grid0.Coords, EltTy.bits .bf16 = 32 ∨ (Rect.block (s := S128x6144) S128x6144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S32768x1.size a
  hwx0_10 : ∀ i : grid0.Coords, EltTy.bits .f32 = 32 ∨ (Rect.block (s := S32768x1) S128x1.size (cc0_transform_10 i) (hinb0_10 i)).WholeWords (EltTy.packing .f32)

variable [Facts₀]

def dot_S128x128_S128x6144_S128x6144_1_0_0_1_n_n : DotDims S128x128 S128x6144 S128x6144 where
  lhsContracting := [1]
  rhsContracting := [0]
  lhsNonContracting := [0]
  rhsNonContracting := [1]
  lhsBatch := []
  rhsBatch := []
  wf := dot_S128x128_S128x6144_S128x6144_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x6144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x2048 : Shape := ⟨2, ![32768, 2048]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S1x2048 : Shape := ⟨2, ![1, 2048]⟩
abbrev S_ : Shape := ⟨0, ![]⟩
abbrev S32768x1 : Shape := ⟨2, ![32768, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x2048, .f32⟩
  | .hbm, ⟨2, _⟩ => ⟨S128x2048, .f32⟩
  | .hbm, ⟨3, _⟩ => ⟨S2048x2048, .f32⟩
  | .hbm, ⟨4, _⟩ => ⟨S2048, .f32⟩
  | .hbm, ⟨5, _⟩ => ⟨S128x2048, .f32⟩
  | .hbm, ⟨6, _⟩ => ⟨S2048x2048, .f32⟩
  | .hbm, ⟨7, _⟩ => ⟨S2048, .f32⟩
  | .hbm, ⟨8, _⟩ => ⟨S128x2048, .f32⟩
  | .hbm, ⟨9, _⟩ => ⟨S2048x2048, .f32⟩
  | .hbm, ⟨10, _⟩ => ⟨S2048, .f32⟩
  | .hbm, ⟨11, _⟩ => ⟨S2048x1, .f32⟩
  | .hbm, ⟨12, _⟩ => ⟨S1, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S1x2048, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S_, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S32768x1, .f32⟩
  | .hbm, ⟨56, _⟩ => ⟨S1x1, .f32⟩
  | .hbm, ⟨57, _⟩ => ⟨S32768x1, .f32⟩
  | .hbm, ⟨58, _⟩ => ⟨S32768x1, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x128_S128x2048_S32768x2048_1_0_0_1_n_n_wf : DotDims.WF S32768x128 S128x2048 S32768x2048 [1] [0] [0] [1] [] []
  dot_S32768x2048_S2048x2048_S32768x2048_1_0_0_1_n_n_wf : DotDims.WF S32768x2048 S2048x2048 S32768x2048 [1] [0] [0] [1] [] []
  dot_S32768x2048_S2048x1_S32768x1_1_0_0_1_n_n_wf : DotDims.WF S32768x2048 S2048x1 S32768x1 [1] [0] [0] [1] [] []

variable [Facts₀]

def dot_S32768x128_S128x2048_S32768x2048_1_0_0_1_n_n : DotDims S32768x128 S128x2048 S32768x2048 where
  lhsContracting := [1]
  rhsContracting := [0]
  lhsNonContracting := [0]
  rhsNonContracting := [1]
  lhsBatch := []
  rhsBatch := []
  wf := dot_S32768x128_S128x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x1_S32768x1_1_0_0_1_n_n : DotDims S32768x2048 S2048x1 S32768x1 where
  lhsContracting := [1]
  rhsContracting := [0]
  lhsNonContracting := [0]
  rhsNonContracting := [1]
  lhsBatch := []
  rhsBatch := []
  wf := dot_S32768x2048_S2048x1_S32768x1_1_0_0_1_n_n_wf

class Facts : Prop extends Facts₀ where

variable [Facts]
-- ==== Proof.CellBits.lean ====
/-
  The run of the GRU-cell program up to and through its one pallas call, and its frame.

  @main first re-lays its arguments on the host (the input and the weights cast to bf16, the three input-side weight
  matrices joined along their columns, the two hidden-side gate matrices joined likewise, the bias vectors and the
  read-out column turned into rows), then launches the call on a grid of 256 batch tiles of 128 rows. At each tile the
  body loads its ten input blocks whole, computes, and stores the 128 x 1 output block whole; it keeps nothing
  between tiles. So: `V` is what the call finds in each buffer (the host lines applied to the launch memory), `iblk`
  a window's block of that at a tile, `rowOut` what the body leaves in the output window's buffer as a function of
  the ten blocks (the one store's value, the body's arithmetic being the named terms `k0_pay…`), `tile_triple` the
  body's triple, `dats` the per-tile bookkeeping, `run_main` the run with every array of the call named after it,
  and `frame`: every execution ends, nothing faults, and the thirteen argument arrays are as launched — no host
  line writes one, and the call writes only its result. Everything here holds at any float instance.
-/
import proofs.«142461_j62551903699450_2_alg».proof.Proof.Gen.Kernel.Launch
import proofs.«142461_j62551903699450_2_alg».proof.Proof.Gen.Kernel.Skeleton
import proofs.«142461_j62551903699450_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- What the call finds in each of core `c`'s buffers: the eleven host lines applied to the launch memory. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is its host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## A window's block at a tile -/

/-- Window `w`'s block at tile `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every tile, whether the pipeline fetched it there or not (a
    window whose block index does not move is fetched once and left in place): for any bookkeeping whose arrays are
    `V`'s and whose body leaves the inputs as found. -/
theorem held_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem held_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem held_of_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the call's arrays -/

/-- A run after which every array of the call is named (the library's post) is a run after which the argument
    arrays are as launched: the hidden state, which the call stages directly, is an input window's array and so
    unchanged; every other argument is staged by no window and written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## What the body reads and what it leaves -/

abbrev whole_S128x128 : Rect S128x128 := Rect.unit (s := S128x128) ![0, 0] S128x128.size Facts₀.inb_S128x128_S128x128_0_0
abbrev whole_S128x2048 : Rect S128x2048 := Rect.unit (s := S128x2048) ![0, 0] S128x2048.size Facts₀.inb_S128x2048_S128x2048_0_0
abbrev whole_S128x6144 : Rect S128x6144 := Rect.unit (s := S128x6144) ![0, 0] S128x6144.size Facts₀.inb_S128x6144_S128x6144_0_0
abbrev whole_S2048x4096 : Rect S2048x4096 := Rect.unit (s := S2048x4096) ![0, 0] S2048x4096.size Facts₀.inb_S2048x4096_S2048x4096_0_0
abbrev whole_S2048x2048 : Rect S2048x2048 := Rect.unit (s := S2048x2048) ![0, 0] S2048x2048.size Facts₀.inb_S2048x2048_S2048x2048_0_0
abbrev whole_S1x2048 : Rect S1x2048 := Rect.unit (s := S1x2048) ![0, 0] S1x2048.size Facts₀.inb_S1x2048_S1x2048_0_0
abbrev whole_S1x1 : Rect S1x1 := Rect.unit (s := S1x1) ![0, 0] S1x1.size Facts₀.inb_S1x1_S1x1_0_0
abbrev whole_S128x1 : Rect S128x1 := Rect.unit (s := S128x1) ![0, 0] S128x1.size Facts₀.inb_S128x1_S128x1_0_0

/-- The output window's buffer after the body, from the ten input blocks: the one store's value over the whole
    128 x 1 buffer. Its arguments are the update gate, the candidate state, the gate times the old state, the
    constant one, the read-out row and the read-out bias. -/
def rowOut (x0 : Vec F S128x128 .bf16) (x1 : Vec F S128x2048 .f32) (x2 : Vec F S128x6144 .bf16) (x3 : Vec F S2048x4096 .bf16) (x4 : Vec F S2048x2048 .bf16) (x5 : Vec F S1x2048 .f32) (x6 : Vec F S1x2048 .f32) (x7 : Vec F S1x2048 .f32) (x8 : Vec F S1x2048 .f32) (x9 : Vec F S1x1 .f32) : Vec F S128x1 .f32 :=
  View.canon [⟨whole_S128x1, k0_pay1 (k0_pay4 (View.ld x0 whole_S128x128) (View.ld x1 whole_S128x2048) (View.ld x2 whole_S128x6144) (View.ld x3 whole_S2048x4096) (View.ld x5 whole_S1x2048)) (k0_pay5 (View.ld x0 whole_S128x128) (View.ld x1 whole_S128x2048) (View.ld x2 whole_S128x6144) (View.ld x3 whole_S2048x4096) (View.ld x6 whole_S1x2048) (View.ld x4 whole_S2048x2048) (View.ld x7 whole_S1x2048)) (k0_pay6 (View.ld x0 whole_S128x128) (View.ld x1 whole_S128x2048) (View.ld x2 whole_S128x6144) (View.ld x3 whole_S2048x4096) (View.ld x5 whole_S1x2048)) (Scalar.ofBits .f32 0x3F800000#32) (View.ld x8 whole_S1x2048) (View.ld x9 whole_S1x1)⟩]

/-- The one store covers the buffer. -/
theorem rowOut_cover (p0 : Vec F S128x1 .f32) (y : S128x1.Idx) :
    ∃ pc ∈ ([⟨whole_S128x1, p0⟩] : List (View.Piece (Elt F) S128x1 .f32)), y ∈ pc.1.set :=
  View.cover_of_tiled [⟨whole_S128x1, p0⟩] S128x1.size (by rfl) y

/-! ## The body's triple -/

set_option maxHeartbeats 4000000 in
/-- The body on whole buffers, the ten inputs' at contents `x0 … x9` and the output's at anything, runs to the end
    leaving the inputs' as they were and the output's at `rowOut` of them. -/
theorem tile_triple (c : Dev nD) (E : Set ℕ) (i : grid0.Coords) (arg1 : Memref sig .tc .vmem S128x128 .bf16) (harg1 : arg1.IsWhole) (arg2 : Memref sig .tc .vmem S128x2048 .f32) (harg2 : arg2.IsWhole) (arg3 : Memref sig .tc .vmem S128x6144 .bf16) (harg3 : arg3.IsWhole) (arg4 : Memref sig .tc .vmem S2048x4096 .bf16) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x1 .f32) (harg10 : arg10.IsWhole) (arg11 : Memref sig .tc .vmem S128x1 .f32) (harg11 : arg11.IsWhole)
    (x0 : Vec F S128x128 .bf16) (x1 : Vec F S128x2048 .f32) (x2 : Vec F S128x6144 .bf16) (x3 : Vec F S2048x4096 .bf16) (x4 : Vec F S2048x2048 .bf16) (x5 : Vec F S1x2048 .f32) (x6 : Vec F S1x2048 .f32) (x7 : Vec F S1x2048 .f32) (x8 : Vec F S1x2048 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (rowOut x0 x1 x2 x3 x4 x5 x6 x7 x8 x9)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (rowOut_cover _)

/-! ## The per-tile bookkeeping -/

/-- On core `c`: the arrays as the call finds them; after the body at tile `t` each input's buffer at its block and
    the output's at `rowOut` of the blocks; nothing else is kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => rowOut (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = rowOut (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem held_0 (c : Dev nD) (t : Fin cfg0.N) (d) : (dats m 0 c).before 0 t d = iblk m c 0 t :=
  held_of_0 m (dats m 0 c) (A_eq m c 0) (after_0 m c) t d
theorem held_1 (c : Dev nD) (t : Fin cfg0.N) (d) : (dats m 0 c).before 1 t d = iblk m c 1 t :=
  held_of_1 m (dats m 0 c) (A_eq m c 1) (after_1 m c) t d
theorem held_2 (c : Dev nD) (t : Fin cfg0.N) (d) : (dats m 0 c).before 2 t d = iblk m c 2 t :=
  held_of_2 m (dats m 0 c) (A_eq m c 2) (after_2 m c) t d
theorem held_3 (c : Dev nD) (t : Fin cfg0.N) (d) : (dats m 0 c).before 3 t d = iblk m c 3 t :=
  held_of_3 m (dats m 0 c) (A_eq m c 3) (after_3 m c) t d
theorem held_4 (c : Dev nD) (t : Fin cfg0.N) (d) : (dats m 0 c).before 4 t d = iblk m c 4 t :=
  held_of_4 m (dats m 0 c) (A_eq m c 4) (after_4 m c) t d
theorem held_5 (c : Dev nD) (t : Fin cfg0.N) (d) : (dats m 0 c).before 5 t d = iblk m c 5 t :=
  held_of_5 m (dats m 0 c) (A_eq m c 5) (after_5 m c) t d
theorem held_6 (c : Dev nD) (t : Fin cfg0.N) (d) : (dats m 0 c).before 6 t d = iblk m c 6 t :=
  held_of_6 m (dats m 0 c) (A_eq m c 6) (after_6 m c) t d
theorem held_7 (c : Dev nD) (t : Fin cfg0.N) (d) : (dats m 0 c).before 7 t d = iblk m c 7 t :=
  held_of_7 m (dats m 0 c) (A_eq m c 7) (after_7 m c) t d
theorem held_8 (c : Dev nD) (t : Fin cfg0.N) (d) : (dats m 0 c).before 8 t d = iblk m c 8 t :=
  held_of_8 m (dats m 0 c) (A_eq m c 8) (after_8 m c) t d
theorem held_9 (c : Dev nD) (t : Fin cfg0.N) (d) : (dats m 0 c).before 9 t d = iblk m c 9 t :=
  held_of_9 m (dats m 0 c) (A_eq m c 9) (after_9 m c) t d

/-! ## The body at a tile -/

/-- What the body is handed at tile `t`, -/
def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it hands back. -/
def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [held_0, held_1, held_2, held_3, held_4, held_5, held_6, held_7, held_8, held_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile_triple c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact tile_sound m c t

/-! ## The run and the frame -/

set_option backward.isDefEq.respectTransparency.types false in
/-- From any memory with zero counters every weakly fair execution of @main terminates, and afterwards every array
    of the call is what the bookkeeping says and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Cell

end
-- ==== Proof.CellIdeal.lean ====
/-
  The run of the GRU-cell program up to and through its one pallas call, and its frame.

  @main first re-lays its arguments on the host (the input and the weights cast to bf16, the three input-side weight
  matrices joined along their columns, the two hidden-side gate matrices joined likewise, the bias vectors and the
  read-out column turned into rows), then launches the call on a grid of 256 batch tiles of 128 rows. At each tile the
  body loads its ten input blocks whole, computes, and stores the 128 x 1 output block whole; it keeps nothing
  between tiles. So: `V` is what the call finds in each buffer (the host lines applied to the launch memory), `iblk`
  a window's block of that at a tile, `rowOut` what the body leaves in the output window's buffer as a function of
  the ten blocks (the one store's value, the body's arithmetic being the named terms `k0_pay…`), `tile_triple` the
  body's triple, `dats` the per-tile bookkeeping, `run_main` the run with every array of the call named after it,
  and `frame`: every execution ends, nothing faults, and the thirteen argument arrays are as launched — no host
  line writes one, and the call writes only its result. Everything here holds at any float instance.
-/
import proofs.«142461_j62551903699450_2_alg».proof.Proof.Gen.KernelIdeal.Launch
import proofs.«142461_j62551903699450_2_alg».proof.Proof.Gen.KernelIdeal.Skeleton
import proofs.«142461_j62551903699450_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- What the call finds in each of core `c`'s buffers: the eleven host lines applied to the launch memory. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is its host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## A window's block at a tile -/

/-- Window `w`'s block at tile `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every tile, whether the pipeline fetched it there or not (a
    window whose block index does not move is fetched once and left in place): for any bookkeeping whose arrays are
    `V`'s and whose body leaves the inputs as found. -/
theorem held_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem held_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem held_of_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the call's arrays -/

/-- A run after which every array of the call is named (the library's post) is a run after which the argument
    arrays are as launched: the hidden state, which the call stages directly, is an input window's array and so
    unchanged; every other argument is staged by no window and written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## What the body reads and what it leaves -/

abbrev whole_S128x128 : Rect S128x128 := Rect.unit (s := S128x128) ![0, 0] S128x128.size Facts₀.inb_S128x128_S128x128_0_0
abbrev whole_S128x2048 : Rect S128x2048 := Rect.unit (s := S128x2048) ![0, 0] S128x2048.size Facts₀.inb_S128x2048_S128x2048_0_0
abbrev whole_S128x6144 : Rect S128x6144 := Rect.unit (s := S128x6144) ![0, 0] S128x6144.size Facts₀.inb_S128x6144_S128x6144_0_0
abbrev whole_S2048x4096 : Rect S2048x4096 := Rect.unit (s := S2048x4096) ![0, 0] S2048x4096.size Facts₀.inb_S2048x4096_S2048x4096_0_0
abbrev whole_S2048x2048 : Rect S2048x2048 := Rect.unit (s := S2048x2048) ![0, 0] S2048x2048.size Facts₀.inb_S2048x2048_S2048x2048_0_0
abbrev whole_S1x2048 : Rect S1x2048 := Rect.unit (s := S1x2048) ![0, 0] S1x2048.size Facts₀.inb_S1x2048_S1x2048_0_0
abbrev whole_S1x1 : Rect S1x1 := Rect.unit (s := S1x1) ![0, 0] S1x1.size Facts₀.inb_S1x1_S1x1_0_0
abbrev whole_S128x1 : Rect S128x1 := Rect.unit (s := S128x1) ![0, 0] S128x1.size Facts₀.inb_S128x1_S128x1_0_0

/-- The output window's buffer after the body, from the ten input blocks: the one store's value over the whole
    128 x 1 buffer. Its arguments are the update gate, the candidate state, the gate times the old state, the
    constant one, the read-out row and the read-out bias. -/
def rowOut (x0 : Vec F S128x128 .bf16) (x1 : Vec F S128x2048 .f32) (x2 : Vec F S128x6144 .bf16) (x3 : Vec F S2048x4096 .bf16) (x4 : Vec F S2048x2048 .bf16) (x5 : Vec F S1x2048 .f32) (x6 : Vec F S1x2048 .f32) (x7 : Vec F S1x2048 .f32) (x8 : Vec F S1x2048 .f32) (x9 : Vec F S1x1 .f32) : Vec F S128x1 .f32 :=
  View.canon [⟨whole_S128x1, k0_pay1 (k0_pay4 (View.ld x0 whole_S128x128) (View.ld x1 whole_S128x2048) (View.ld x2 whole_S128x6144) (View.ld x3 whole_S2048x4096) (View.ld x5 whole_S1x2048)) (k0_pay5 (View.ld x0 whole_S128x128) (View.ld x1 whole_S128x2048) (View.ld x2 whole_S128x6144) (View.ld x3 whole_S2048x4096) (View.ld x6 whole_S1x2048) (View.ld x4 whole_S2048x2048) (View.ld x7 whole_S1x2048)) (k0_pay6 (View.ld x0 whole_S128x128) (View.ld x1 whole_S128x2048) (View.ld x2 whole_S128x6144) (View.ld x3 whole_S2048x4096) (View.ld x5 whole_S1x2048)) (Scalar.ofBits .f32 0x3F800000#32) (View.ld x8 whole_S1x2048) (View.ld x9 whole_S1x1)⟩]

/-- The one store covers the buffer. -/
theorem rowOut_cover (p0 : Vec F S128x1 .f32) (y : S128x1.Idx) :
    ∃ pc ∈ ([⟨whole_S128x1, p0⟩] : List (View.Piece (Elt F) S128x1 .f32)), y ∈ pc.1.set :=
  View.cover_of_tiled [⟨whole_S128x1, p0⟩] S128x1.size (by rfl) y

/-! ## The body's triple -/

set_option maxHeartbeats 4000000 in
/-- The body on whole buffers, the ten inputs' at contents `x0 … x9` and the output's at anything, runs to the end
    leaving the inputs' as they were and the output's at `rowOut` of them. -/
theorem tile_triple (c : Dev nD) (E : Set ℕ) (i : grid0.Coords) (arg1 : Memref sig .tc .vmem S128x128 .bf16) (harg1 : arg1.IsWhole) (arg2 : Memref sig .tc .vmem S128x2048 .f32) (harg2 : arg2.IsWhole) (arg3 : Memref sig .tc .vmem S128x6144 .bf16) (harg3 : arg3.IsWhole) (arg4 : Memref sig .tc .vmem S2048x4096 .bf16) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x1 .f32) (harg10 : arg10.IsWhole) (arg11 : Memref sig .tc .vmem S128x1 .f32) (harg11 : arg11.IsWhole)
    (x0 : Vec F S128x128 .bf16) (x1 : Vec F S128x2048 .f32) (x2 : Vec F S128x6144 .bf16) (x3 : Vec F S2048x4096 .bf16) (x4 : Vec F S2048x2048 .bf16) (x5 : Vec F S1x2048 .f32) (x6 : Vec F S1x2048 .f32) (x7 : Vec F S1x2048 .f32) (x8 : Vec F S1x2048 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (rowOut x0 x1 x2 x3 x4 x5 x6 x7 x8 x9)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (rowOut_cover _)

/-! ## The per-tile bookkeeping -/

/-- On core `c`: the arrays as the call finds them; after the body at tile `t` each input's buffer at its block and
    the output's at `rowOut` of the blocks; nothing else is kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => rowOut (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = rowOut (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem held_0 (c : Dev nD) (t : Fin cfg0.N) (d) : (dats m 0 c).before 0 t d = iblk m c 0 t :=
  held_of_0 m (dats m 0 c) (A_eq m c 0) (after_0 m c) t d
theorem held_1 (c : Dev nD) (t : Fin cfg0.N) (d) : (dats m 0 c).before 1 t d = iblk m c 1 t :=
  held_of_1 m (dats m 0 c) (A_eq m c 1) (after_1 m c) t d
theorem held_2 (c : Dev nD) (t : Fin cfg0.N) (d) : (dats m 0 c).before 2 t d = iblk m c 2 t :=
  held_of_2 m (dats m 0 c) (A_eq m c 2) (after_2 m c) t d
theorem held_3 (c : Dev nD) (t : Fin cfg0.N) (d) : (dats m 0 c).before 3 t d = iblk m c 3 t :=
  held_of_3 m (dats m 0 c) (A_eq m c 3) (after_3 m c) t d
theorem held_4 (c : Dev nD) (t : Fin cfg0.N) (d) : (dats m 0 c).before 4 t d = iblk m c 4 t :=
  held_of_4 m (dats m 0 c) (A_eq m c 4) (after_4 m c) t d
theorem held_5 (c : Dev nD) (t : Fin cfg0.N) (d) : (dats m 0 c).before 5 t d = iblk m c 5 t :=
  held_of_5 m (dats m 0 c) (A_eq m c 5) (after_5 m c) t d
theorem held_6 (c : Dev nD) (t : Fin cfg0.N) (d) : (dats m 0 c).before 6 t d = iblk m c 6 t :=
  held_of_6 m (dats m 0 c) (A_eq m c 6) (after_6 m c) t d
theorem held_7 (c : Dev nD) (t : Fin cfg0.N) (d) : (dats m 0 c).before 7 t d = iblk m c 7 t :=
  held_of_7 m (dats m 0 c) (A_eq m c 7) (after_7 m c) t d
theorem held_8 (c : Dev nD) (t : Fin cfg0.N) (d) : (dats m 0 c).before 8 t d = iblk m c 8 t :=
  held_of_8 m (dats m 0 c) (A_eq m c 8) (after_8 m c) t d
theorem held_9 (c : Dev nD) (t : Fin cfg0.N) (d) : (dats m 0 c).before 9 t d = iblk m c 9 t :=
  held_of_9 m (dats m 0 c) (A_eq m c 9) (after_9 m c) t d

/-! ## The body at a tile -/

/-- What the body is handed at tile `t`, -/
def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it hands back. -/
def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [held_0, held_1, held_2, held_3, held_4, held_5, held_6, held_7, held_8, held_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile_triple c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact tile_sound m c t

/-! ## The run and the frame -/

set_option backward.isDefEq.respectTransparency.types false in
/-- From any memory with zero counters every weakly fair execution of @main terminates, and afterwards every array
    of the call is what the bookkeeping says and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Cell

end
-- ==== Proof.Spec.lean ====
/-
  One step of a gated recurrent cell with a scalar read-out, for ONE batch row, over the extended reals.

  From the row's input features `xr` (128 of them) and its old hidden state `hr` (2048 units):
    update gate     z j = σ((Σₖ xr k · Wxz k j + Σₖ hr k · Whz k j) + bz j)
    reset gate      r j = σ((Σₖ xr k · Wxr k j + Σₖ hr k · Whr k j) + br j)
    candidate       c j = tanh((Σₖ xr k · Wxh k j + Σₖ (r k · hr k) · Whh k j) + bh j)
    new state       n j = z j · hr j + (1 − z j) · c j
    read-out        y   = Σₖ n k · wq k + bq
  with σ the logistic function on the extended reals, the sums and products the extended reals' own, taken in
  exactly this order and grouping — so that both programs' results are this term on the nose, and no law of
  arithmetic (hence no finiteness of the inputs) is needed to compare them. The literal 1 of "1 − z" stays the
  float word both programs spell.
-/
import Idealize.ShloMosaic.PureOps.Ideal
import Idealize.ShloMosaic.Lib.ValueIdx

noncomputable section

namespace Cert.Gru

open Idealize.ShloMosaic Idealize.ShloMosaic.ValueIdx

/-- The float word 1.0, as the extended real it denotes. -/
abbrev one : EReal := Ideal.ofBits .f32 0x3F800000#32

/-- It denotes the number one. -/
theorem one_eq : one = 1 := by
  simp [one, Ideal.ofBits, Ideal.ieee, -EReal.coe_mul]; norm_num

/-- The logistic function spelt with the float word: 1 / (1 + e^(−a)). -/
theorem logistic_spelt (a : EReal) : Ideal.div one (one + Ideal.exp (-a)) = Ideal.logistic a := by
  rw [one_eq]; rfl

/-- A sigmoid gate's unit `j` for one row: σ of the row's two projections plus the bias. -/
def gate (xr : Fin 128 → EReal) (hr : Fin 2048 → EReal) (Wx : Fin 128 → Fin 2048 → EReal)
    (Wh : Fin 2048 → Fin 2048 → EReal) (b : Fin 2048 → EReal) (j : Fin 2048) : EReal :=
  Ideal.logistic (((∑ k : Fin 128, xr k * Wx k j) + (∑ k : Fin 2048, hr k * Wh k j)) + b j)

/-- The candidate state's unit `j`: tanh of the input projection plus the projection of the reset-gated state,
    plus the bias; `r` is the reset gate. -/
def cand (xr : Fin 128 → EReal) (hr : Fin 2048 → EReal) (r : Fin 2048 → EReal) (Wx : Fin 128 → Fin 2048 → EReal)
    (Wh : Fin 2048 → Fin 2048 → EReal) (b : Fin 2048 → EReal) (j : Fin 2048) : EReal :=
  Ideal.tanh (((∑ k : Fin 128, xr k * Wx k j) + (∑ k : Fin 2048, (r k * hr k) * Wh k j)) + b j)

/-- The new state's unit `j` from the update gate `z` and the candidate `c`. -/
def blend (hr z c : Fin 2048 → EReal) (j : Fin 2048) : EReal :=
  z j * hr j + (one - z j) * c j

/-- The row's read-out. -/
def readout (xr : Fin 128 → EReal) (hr : Fin 2048 → EReal)
    (Wxz : Fin 128 → Fin 2048 → EReal) (Whz : Fin 2048 → Fin 2048 → EReal) (bz : Fin 2048 → EReal)
    (Wxr : Fin 128 → Fin 2048 → EReal) (Whr : Fin 2048 → Fin 2048 → EReal) (br : Fin 2048 → EReal)
    (Wxh : Fin 128 → Fin 2048 → EReal) (Whh : Fin 2048 → Fin 2048 → EReal) (bh : Fin 2048 → EReal)
    (wq : Fin 2048 → EReal) (bq : EReal) : EReal :=
  (∑ k : Fin 2048, blend hr (gate xr hr Wxz Whz bz) (cand xr hr (gate xr hr Wxr Whr br) Wxh Whh bh) k * wq k) + bq

/-- The read-out of batch row `r` from the program's thirteen argument arrays: the input features, the old hidden
    state, and for the update gate, the reset gate and the candidate in turn the input-side matrix, the hidden-side
    matrix and the bias; then the read-out column and its bias. -/
def rowOf (a0 : (⟨2, ![32768, 128]⟩ : Shape).Idx → EReal)
    (a1 : (⟨2, ![32768, 2048]⟩ : Shape).Idx → EReal)
    (a2 : (⟨2, ![128, 2048]⟩ : Shape).Idx → EReal)
    (a3 : (⟨2, ![2048, 2048]⟩ : Shape).Idx → EReal)
    (a4 : (⟨1, ![2048]⟩ : Shape).Idx → EReal)
    (a5 : (⟨2, ![128, 2048]⟩ : Shape).Idx → EReal)
    (a6 : (⟨2, ![2048, 2048]⟩ : Shape).Idx → EReal)
    (a7 : (⟨1, ![2048]⟩ : Shape).Idx → EReal)
    (a8 : (⟨2, ![128, 2048]⟩ : Shape).Idx → EReal)
    (a9 : (⟨2, ![2048, 2048]⟩ : Shape).Idx → EReal)
    (a10 : (⟨1, ![2048]⟩ : Shape).Idx → EReal)
    (a11 : (⟨2, ![2048, 1]⟩ : Shape).Idx → EReal)
    (a12 : (⟨1, ![1]⟩ : Shape).Idx → EReal) (r : Fin 32768) : EReal :=
  readout (fun k => a0 (ix2 r k)) (fun k => a1 (ix2 r k))
    (fun k j => a2 (ix2 k j)) (fun k j => a3 (ix2 k j)) (fun j => a4 (ix1 j))
    (fun k j => a5 (ix2 k j)) (fun k j => a6 (ix2 k j)) (fun j => a7 (ix1 j))
    (fun k j => a8 (ix2 k j)) (fun k j => a9 (ix2 k j)) (fun j => a10 (ix1 j))
    (fun k => a11 (ix2 k 0)) (a12 (ix1 0))

/-- The whole result, a column with one read-out per batch row. -/
def cellOut (a0 : (⟨2, ![32768, 128]⟩ : Shape).Idx → EReal)
    (a1 : (⟨2, ![32768, 2048]⟩ : Shape).Idx → EReal)
    (a2 : (⟨2, ![128, 2048]⟩ : Shape).Idx → EReal)
    (a3 : (⟨2, ![2048, 2048]⟩ : Shape).Idx → EReal)
    (a4 : (⟨1, ![2048]⟩ : Shape).Idx → EReal)
    (a5 : (⟨2, ![128, 2048]⟩ : Shape).Idx → EReal)
    (a6 : (⟨2, ![2048, 2048]⟩ : Shape).Idx → EReal)
    (a7 : (⟨1, ![2048]⟩ : Shape).Idx → EReal)
    (a8 : (⟨2, ![128, 2048]⟩ : Shape).Idx → EReal)
    (a9 : (⟨2, ![2048, 2048]⟩ : Shape).Idx → EReal)
    (a10 : (⟨1, ![2048]⟩ : Shape).Idx → EReal)
    (a11 : (⟨2, ![2048, 1]⟩ : Shape).Idx → EReal)
    (a12 : (⟨1, ![1]⟩ : Shape).Idx → EReal) : (⟨2, ![32768, 1]⟩ : Shape).Idx → EReal :=
  fun i => rowOf a0 a1 a2 a3 a4 a5 a6 a7 a8 a9 a10 a11 a12 ⟨(i 0).val, (i 0).isLt⟩

end Cert.Gru

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibKeepdims.lean ====
/-
  Vectors re-laid around unit axes, read at an index, generic in the extents: a vector as a column ([a] as [a, 1]),
  a column repeated along its unit axis ([a, 1] as [a, b]), a vector under two leading unit axes and back
  ([a] as [1, 1, a]; [1, 1, a] as [a]), and a stack of single-row blocks flattened row-major ([g, 1, c] as [a, b]).
-/
import Idealize.ShloMosaic.Lib.Pipeline.Value
import Idealize.ShloMosaic.Lib.ValueIdx

namespace Cert.Layout

open Idealize.ShloMosaic Idealize.ShloMosaic.ValueIdx

variable {α : Type}

/-- An `[a]` vector cast to the column `[a, 1]` reads, at `(i, u)`, the operand at `i`. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(i, j)`, the column at `(i, 0)`. -/
theorem bcast_col {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a]` vector under two leading unit axes reads, at `(u, u', i)`, the operand at `i`. -/
theorem cast_lead2 {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']; omega)

/-- A `[1, 1, a]` vector with its unit axes dropped reads, at `i`, the operand at `(0, 0, i)`. -/
theorem cast_drop2 {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A stack `[g, 1, c]` of single-row blocks flattened row-major to `[a, b]`: entry `(r, s)` is entry `(t, 0, p)` of
    the stack whenever `r·b + s = t·c + p`. -/
theorem cast_stack {g c a b : ℕ} (x : (⟨3, ![g, 1, c]⟩ : Shape).Idx → α) (h : (⟨3, ![g, 1, c]⟩ : Shape).ShapeCasts ⟨2, ![a, b]⟩)
    (r : Fin a) (s : Fin b) (t : Fin g) (p : Fin c) (hrs : r.val * b + s.val = t.val * c + p.val) :
    shapeCast ⟨2, ![a, b]⟩ x h (ix2 r s) = x (ix3 t (0 : Fin 1) p) :=
  shapeCast_apply x h _ _ (by
    rw [Shape.rowMajor_val_three, Shape.rowMajor_val_two]
    show (t.val * 1 + 0) * c + p.val = r.val * b + s.val
    rw [Nat.mul_one, Nat.add_zero, hrs])

end Cert.Layout
-- ==== Proof.LibCols.lean ====
/-
  Matrices cut and joined along their columns, and a column laid out as a row, read at an index; generic in the
  extents.

  Columns o … o + N' − 1 cut out of a matrix [R, N] read, at (r, j), the matrix at (r, o + j). Two or three
  matrices with the same row count joined side by side read, at (k, c), the piece that column c falls in, at that
  piece's own column. A column [C, 1] reshaped to the row [1, C] reads, at (0, c), the column at (c, 0) (the data
  order is the same, the unit axis moved).
-/
import Idealize.ShloMosaic.Lib.ValueIdx
import Idealize.ShloMosaic.Lib.Pipeline.Value

noncomputable section

namespace Cert.Lib.Cols

open Idealize.ShloMosaic Idealize.ShloMosaic.ValueIdx

variable {α : Type}

/-- Columns o … o + N' − 1 of a matrix [R, N], read at (r, j), are the matrix at (r, o + j). -/
theorem slice_cols_apply {R N N' o : Nat} (x : (⟨2, ![R, N]⟩ : Shape).Idx → α)
    (h : (⟨2, ![R, N]⟩ : Shape).Slices ![0, o] ⟨2, ![R, N']⟩) (r : Fin R) (j : Fin N') (hj : o + j.val < N) :
    extractStridedSlice ⟨2, ![R, N']⟩ ![0, o] x h (ix2 r j) = x (ix2 r ⟨o + j.val, hj⟩) :=
  extractStridedSlice_apply ![0, o] x h (ix2 r j) (ix2 r ⟨o + j.val, hj⟩) (fun a => by
    match a with
    | ⟨0, _⟩ => show r.val = 0 + r.val; omega
    | ⟨1, _⟩ => rfl)

/-- A column [C, 1] reshaped to the row [1, C], read at (0, c), is the column at (c, 0). -/
theorem shapeCast_col_row_apply {C : Nat} (x : (⟨2, ![C, 1]⟩ : Shape).Idx → α)
    (h : (⟨2, ![C, 1]⟩ : Shape).ShapeCasts ⟨2, ![1, C]⟩) (c : Fin C) :
    shapeCast ⟨2, ![1, C]⟩ x h (ix2 0 c) = x (ix2 c 0) :=
  shapeCast_apply x h (ix2 0 c) (ix2 c 0) (by
    rw [Shape.rowMajor_val_two, Shape.rowMajor_val_two]
    show c.val * 1 + (0 : Nat) = (0 : Nat) * C + c.val
    omega)

/-- Two matrices [K, N₁], [K, N₂] joined along their columns, read at a column of the FIRST. -/
theorem concat2_cols_fst {K N₁ N₂ N : Nat} (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (j : Fin N₁) (hj : j.val < N) :
    concatenate ⟨2, ![K, N]⟩ 1 [⟨⟨2, ![K, N₁]⟩, a⟩, ⟨⟨2, ![K, N₂]⟩, b⟩] h (ix2 k ⟨j.val, hj⟩) = a (ix2 k j) :=
  concatenate_pair_apply_left 1 a b h (ix2 k ⟨j.val, hj⟩) rfl (ix2 k j) (fun ax => by
    match ax with
    | ⟨0, _⟩ => rfl
    | ⟨1, _⟩ => rfl)

/-- Two matrices [K, N₁], [K, N₂] joined along their columns, read at a column of the SECOND. -/
theorem concat2_cols_snd {K N₁ N₂ N : Nat} (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (j : Fin N₂) (hj : N₁ + j.val < N) :
    concatenate ⟨2, ![K, N]⟩ 1 [⟨⟨2, ![K, N₁]⟩, a⟩, ⟨⟨2, ![K, N₂]⟩, b⟩] h (ix2 k ⟨N₁ + j.val, hj⟩) = b (ix2 k j) :=
  concatenate_pair_apply_right 1 a b h (ix2 k ⟨N₁ + j.val, hj⟩) rfl rfl (ix2 k j) (fun ax hax => by
    match ax with
    | ⟨0, _⟩ => rfl
    | ⟨1, _⟩ => exact absurd rfl hax) (by show j.val + N₁ = N₁ + j.val; omega)

/-- Three matrices [K, N₁], [K, N₂], [K, N₃] joined along their columns, read at a column of the FIRST. -/
theorem concat3_cols_fst {K N₁ N₂ N₃ N : Nat} (a : (⟨2, ![K, N₁]⟩ : Shape).Idx → α) (b : (⟨2, ![K, N₂]⟩ : Shape).Idx → α)
    (c : (⟨2, ![K, N₃]⟩ : Shape).Idx → α)
    (h : Shape.Concatenates [(⟨2, ![K, N₁]⟩ : Shape), ⟨2, ![K, N₂]⟩, ⟨2, ![K, N₃]⟩] ⟨2, ![K, N]⟩ 1)
    (k : Fin K) (j : Fin N₁) (hj : j.val < N) :
    concatenate ⟨2, ![K, N]⟩ 1 [⟨⟨2, ![K, N₁]⟩, a⟩, ⟨⟨2, ![K, N₂]⟩, b⟩, ⟨⟨2, ![K, N₃]⟩, c⟩] h (ix2 k ⟨j.val, hj⟩) = a (ix2 k j) :=
  concatenate_apply_piece 1 [⟨⟨2, ![K, N₁]⟩, a⟩, ⟨⟨2, ![K, N₂]⟩, b⟩, ⟨⟨2, ![K, N₃]⟩, c⟩] h (ix2 k ⟨j.val, hj⟩)
    0 (by simp) ⟨2, ![K, N₁]⟩ a rfl rfl 0 rfl (ix2 k j) (fun ax hax => by
      match ax with
      | ⟨0, _⟩ => rfl
      | ⟨1, _⟩ => exact absurd rfl hax) (by show 0 + j.val = j.val; omega)

/-- … at a column of the SECOND. -/
theorem concat3_cols_snd {K N₁ N₂ N₃ N : Nat} (a : (⟨2, ![K, N₁]⟩ : Shape).Idx → α) (b : (⟨2, ![K, N₂]⟩ : Shape).Idx → α)
    (c : (⟨2, ![K, N₃]⟩ : Shape).Idx → α)
    (h : Shape.Concatenates [(⟨2, ![K, N₁]⟩ : Shape), ⟨2, ![K, N₂]⟩, ⟨2, ![K, N₃]⟩] ⟨2, ![K, N]⟩ 1)
    (k : Fin K) (j : Fin N₂) (hj : N₁ + j.val < N) :
    concatenate ⟨2, ![K, N]⟩ 1 [⟨⟨2, ![K, N₁]⟩, a⟩, ⟨⟨2, ![K, N₂]⟩, b⟩, ⟨⟨2, ![K, N₃]⟩, c⟩] h (ix2 k ⟨N₁ + j.val, hj⟩) = b (ix2 k j) :=
  concatenate_apply_piece 1 [⟨⟨2, ![K, N₁]⟩, a⟩, ⟨⟨2, ![K, N₂]⟩, b⟩, ⟨⟨2, ![K, N₃]⟩, c⟩] h (ix2 k ⟨N₁ + j.val, hj⟩)
    1 (by simp) ⟨2, ![K, N₂]⟩ b rfl rfl N₁ (by simp) (ix2 k j) (fun ax hax => by
      match ax with
      | ⟨0, _⟩ => rfl
      | ⟨1, _⟩ => exact absurd rfl hax) rfl

/-- … at a column of the THIRD. -/
theorem concat3_cols_thd {K N₁ N₂ N₃ N : Nat} (a : (⟨2, ![K, N₁]⟩ : Shape).Idx → α) (b : (⟨2, ![K, N₂]⟩ : Shape).Idx → α)
    (c : (⟨2, ![K, N₃]⟩ : Shape).Idx → α)
    (h : Shape.Concatenates [(⟨2, ![K, N₁]⟩ : Shape), ⟨2, ![K, N₂]⟩, ⟨2, ![K, N₃]⟩] ⟨2, ![K, N]⟩ 1)
    (k : Fin K) (j : Fin N₃) (hj : N₁ + N₂ + j.val < N) :
    concatenate ⟨2, ![K, N]⟩ 1 [⟨⟨2, ![K, N₁]⟩, a⟩, ⟨⟨2, ![K, N₂]⟩, b⟩, ⟨⟨2, ![K, N₃]⟩, c⟩] h (ix2 k ⟨N₁ + N₂ + j.val, hj⟩) = c (ix2 k j) :=
  concatenate_apply_piece 1 [⟨⟨2, ![K, N₁]⟩, a⟩, ⟨⟨2, ![K, N₂]⟩, b⟩, ⟨⟨2, ![K, N₃]⟩, c⟩] h (ix2 k ⟨N₁ + N₂ + j.val, hj⟩)
    2 (by simp) ⟨2, ![K, N₃]⟩ c rfl rfl (N₁ + N₂) (by simp) (ix2 k j) (fun ax hax => by
      match ax with
      | ⟨0, _⟩ => rfl
      | ⟨1, _⟩ => exact absurd rfl hax) rfl

end Cert.Lib.Cols

end
-- ==== Proof.TileValue.lean ====
/-
  What the kernel's body stores, read at one row of the tile, is the cell's read-out of that row.

  The body's arithmetic is the generated terms `k0_pay…` of the ten loaded blocks: the input tile `x0` (128 rows),
  the hidden-state tile `x1`, the three input-side weight matrices side by side in `x2` (columns 0–2047 the update
  gate's, 2048–4095 the reset gate's, 4096–6143 the candidate's), the two hidden-side gate matrices side by side in
  `x3`, the candidate's hidden-side matrix `x4`, the three bias rows `x5 x6 x7`, the read-out row `x8` and the
  read-out bias `x9`. Read at row `p`: a matrix product into the zero accumulator is the plain sum over the
  contracted index; cutting columns o … o+2047 out of a product reads the product at column o + j, which is the
  product with the matrix's columns o … o+2047; a change of float format is the identity; a bias row spread over the
  rows reads the row; the lane sum is the sum over the 2048 units. Term by term this is `Cert.Gru.readout` of row
  `p` of the two tiles and of the weight blocks' pieces.
-/
import proofs.«142461_j62551903699450_2_alg».proof.Proof.Gen.KernelIdeal.Skeleton
import proofs.«142461_j62551903699450_2_alg».proof.Proof.Spec
import proofs.«142461_j62551903699450_2_alg».proof.Proof.LibPlainDot
import proofs.«142461_j62551903699450_2_alg».proof.Proof.LibRows
import proofs.«142461_j62551903699450_2_alg».proof.Proof.LibKeepdims
import proofs.«142461_j62551903699450_2_alg».proof.Proof.LibCols
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal Cert.KernelIdeal.Facts₀ Cert.Gru
open Cert.KernelIdeal.Gen (k0_pay1 k0_pay2 k0_pay3 k0_pay4 k0_pay5 k0_pay6)

/-! ## Where a gate's columns sit in the joined matrices -/

/-- Column `o + j` of the three input-side matrices side by side. -/
abbrev col3 (o : Nat) (ho : o + 2048 ≤ 6144) (j : Fin 2048) : Fin 6144 := ⟨o + j.val, by have := j.isLt; omega⟩
/-- Column `o + j` of the two hidden-side gate matrices side by side. -/
abbrev col2 (o : Nat) (ho : o + 2048 ≤ 4096) (j : Fin 2048) : Fin 4096 := ⟨o + j.val, by have := j.isLt; omega⟩

/-! ## The three matrix products -/

/-- The input tile times the joined input-side matrices, at (p, c). -/
theorem xproj_apply (x0 : Vec Ideal S128x128 .bf16) (x2 : Vec Ideal S128x6144 .bf16) (p : Fin 128) (c : Fin 6144) :
    k0_pay2 x0 x2 (ix2 p c) = ∑ k : Fin 128, x0 (ix2 p k) * x2 (ix2 k c) := by
  unfold k0_pay2
  simp only [shapeCast_self]
  exact Cert.Lib.PlainDot.matmul_plain_zero_apply (M := 128) (K := 128) (N := 6144) none x0 x2 p c

/-- The hidden-state tile times the joined hidden-side gate matrices, at (p, c). -/
theorem hproj_apply (x1 : Vec Ideal S128x2048 .f32) (x3 : Vec Ideal S2048x4096 .bf16) (p : Fin 128) (c : Fin 4096) :
    k0_pay3 x1 x3 (ix2 p c) = ∑ k : Fin 2048, x1 (ix2 p k) * x3 (ix2 k c) := by
  unfold k0_pay3
  simp only [shapeCast_self]
  exact Cert.Lib.PlainDot.matmul_plain_zero_apply (M := 128) (K := 2048) (N := 4096) none (truncf .bf16 x1 bitsLt_bf16_f32) x3 p c

/-! ## A gate -/

/-- A sigmoid gate as the body spells it: the two products' columns from `o3` and `o2` on, added, plus the bias
    row spread over the rows, through the logistic function. -/
def gateVec (o3 o2 : Nat) (h3 : S128x6144.Slices ![0, o3] S128x2048) (h2 : S128x4096.Slices ![0, o2] S128x2048)
    (x0 : Vec Ideal S128x128 .bf16) (x1 : Vec Ideal S128x2048 .f32) (x2 : Vec Ideal S128x6144 .bf16)
    (x3 : Vec Ideal S2048x4096 .bf16) (b : Vec Ideal S1x2048 .f32) : FVec Ideal S128x2048 .f32 :=
  logistic (addf (addf (extractStridedSlice S128x2048 ![0, o3] (k0_pay2 x0 x2) h3)
      (extractStridedSlice S128x2048 ![0, o2] (k0_pay3 x1 x3) h2))
    (broadcastTo S128x2048 (shapeCast S1x2048 b shapeCasts_S1x2048_S1x2048) broadcasts_S1x2048_S128x2048))

/-- Read at (p, j) it is the cell's gate of row `p`, with the matrices' columns from `o3`, `o2` on. -/
theorem gateVec_apply (o3 o2 : Nat) (ho3 : o3 + 2048 ≤ 6144) (ho2 : o2 + 2048 ≤ 4096)
    (h3 : S128x6144.Slices ![0, o3] S128x2048) (h2 : S128x4096.Slices ![0, o2] S128x2048)
    (x0 : Vec Ideal S128x128 .bf16) (x1 : Vec Ideal S128x2048 .f32) (x2 : Vec Ideal S128x6144 .bf16)
    (x3 : Vec Ideal S2048x4096 .bf16) (b : Vec Ideal S1x2048 .f32) (p : Fin 128) (j : Fin 2048) :
    gateVec o3 o2 h3 h2 x0 x1 x2 x3 b (ix2 p j)
      = gate (fun k => x0 (ix2 p k)) (fun k => x1 (ix2 p k)) (fun k j => x2 (ix2 k (col3 o3 ho3 j)))
          (fun k j => x3 (ix2 k (col2 o2 ho2 j))) (fun j => b (ix2 0 j)) j := by
  unfold gateVec gate
  show Ideal.logistic ((extractStridedSlice S128x2048 ![0, o3] (k0_pay2 x0 x2) h3 (ix2 p j)
      + extractStridedSlice S128x2048 ![0, o2] (k0_pay3 x1 x3) h2 (ix2 p j))
      + broadcastTo S128x2048 (shapeCast S1x2048 b shapeCasts_S1x2048_S1x2048) broadcasts_S1x2048_S128x2048 (ix2 p j)) = _
  rw [Cert.Lib.Cols.slice_cols_apply (R := 128) (N := 6144) (N' := 2048) (k0_pay2 x0 x2) h3 p j (by have := j.isLt; omega),
    Cert.Lib.Cols.slice_cols_apply (R := 128) (N := 4096) (N' := 2048) (k0_pay3 x1 x3) h2 p j (by have := j.isLt; omega),
    Cert.Lib.Rows.broadcastTo_row_apply (R := 128) (C := 2048) _ broadcasts_S1x2048_S128x2048 p j,
    shapeCast_self, xproj_apply, hproj_apply]

/-! ## The candidate state -/

/-- The candidate as the body spells it, over the reset gate `r` as a vector. -/
def candVec (r : FVec Ideal S128x2048 .f32) (x0 : Vec Ideal S128x128 .bf16) (x1 : Vec Ideal S128x2048 .f32)
    (x2 : Vec Ideal S128x6144 .bf16) (x4 : Vec Ideal S2048x2048 .bf16) (b : Vec Ideal S1x2048 .f32) : FVec Ideal S128x2048 .f32 :=
  tanh (addf (addf (extractStridedSlice S128x2048 ![0, 4096] (k0_pay2 x0 x2) slices_S128x6144_o0_4096_S128x2048)
      (matmul dot_S128x2048_S2048x2048_S128x2048_1_0_0_1_n_n none (truncf .bf16 (mulf r x1) bitsLt_bf16_f32)
        (shapeCast S2048x2048 x4 shapeCasts_S2048x2048_S2048x2048 : FVec Ideal S2048x2048 .bf16) (constant S128x2048 .f32 0x00000000#32)))
    (broadcastTo S128x2048 (shapeCast S1x2048 b shapeCasts_S1x2048_S1x2048) broadcasts_S1x2048_S128x2048))

/-- Read at (p, j) it is the cell's candidate of row `p`, over row `p` of the reset gate. -/
theorem candVec_apply (r : FVec Ideal S128x2048 .f32) (x0 : Vec Ideal S128x128 .bf16) (x1 : Vec Ideal S128x2048 .f32)
    (x2 : Vec Ideal S128x6144 .bf16) (x4 : Vec Ideal S2048x2048 .bf16) (b : Vec Ideal S1x2048 .f32) (p : Fin 128) (j : Fin 2048) :
    candVec r x0 x1 x2 x4 b (ix2 p j)
      = cand (fun k => x0 (ix2 p k)) (fun k => x1 (ix2 p k)) (fun k => r (ix2 p k))
          (fun k j => x2 (ix2 k (col3 4096 (by omega) j))) (fun k j => x4 (ix2 k j)) (fun j => b (ix2 0 j)) j := by
  unfold candVec cand
  show Ideal.tanh ((extractStridedSlice S128x2048 ![0, 4096] (k0_pay2 x0 x2) slices_S128x6144_o0_4096_S128x2048 (ix2 p j)
      + matmul dot_S128x2048_S2048x2048_S128x2048_1_0_0_1_n_n none (truncf .bf16 (mulf r x1) bitsLt_bf16_f32)
        (shapeCast S2048x2048 x4 shapeCasts_S2048x2048_S2048x2048 : FVec Ideal S2048x2048 .bf16) (constant S128x2048 .f32 0x00000000#32) (ix2 p j))
      + broadcastTo S128x2048 (shapeCast S1x2048 b shapeCasts_S1x2048_S1x2048) broadcasts_S1x2048_S128x2048 (ix2 p j)) = _
  have hm : matmul (φ₁ := .bf16) (φ₂ := .bf16) dot_S128x2048_S2048x2048_S128x2048_1_0_0_1_n_n none (truncf .bf16 (mulf r x1) bitsLt_bf16_f32)
        x4 (constant S128x2048 .f32 0x00000000#32) (ix2 p j)
      = ∑ k : Fin 2048, (truncf .bf16 (mulf r x1) bitsLt_bf16_f32 : FVec Ideal S128x2048 .bf16) (ix2 p k) * x4 (ix2 k j) :=
    Cert.Lib.PlainDot.matmul_plain_zero_apply (φ₁ := .bf16) (φ₂ := .bf16) (M := 128) (K := 2048) (N := 2048) none (truncf .bf16 (mulf r x1) bitsLt_bf16_f32) x4 p j
  rw [Cert.Lib.Cols.slice_cols_apply (R := 128) (N := 6144) (N' := 2048) (k0_pay2 x0 x2) slices_S128x6144_o0_4096_S128x2048 p j (by have := j.isLt; omega),
    Cert.Lib.Rows.broadcastTo_row_apply (R := 128) (C := 2048) _ broadcasts_S1x2048_S128x2048 p j,
    shapeCast_self, shapeCast_self, xproj_apply, hm]
  rfl

/-! ## The blend, the lane sum and the read-out -/

/-- The lifted index of the lane sum: row `p` with unit `k` inserted. -/
theorem lane_lift (p : Fin 128) (k : Fin 2048) :
    (reduces_S128x2048_S128 : S128x2048.Reduces [1] S128).lift (ix1 p) k = ix2 p k :=
  funext fun c => Fin.ext (by
    match c with
    | ⟨0, _⟩ => rfl
    | ⟨1, _⟩ => rfl)

/-- The stored value at row `p`, over the update gate `z`, the candidate `c` and the gate-times-state `zh` as
    vectors: the sum over the units of (zh + (1 − z) · c) times the read-out row, plus the read-out bias. -/
theorem store_apply (z c zh : FVec Ideal S128x2048 .f32) (x8 : Vec Ideal S1x2048 .f32) (x9 : Vec Ideal S1x1 .f32) (p : Fin 128) :
    k0_pay1 z c zh (Scalar.ofBits .f32 0x3F800000#32) x8 x9 (ix2 p 0)
      = (∑ k : Fin 2048, (zh (ix2 p k) + (one - z (ix2 p k)) * c (ix2 p k)) * x8 (ix2 0 k)) + x9 (ix2 0 0) := by
  unfold k0_pay1
  show shapeCast S128x1 (multiReduction .add [1] S128
        (mulf (addf zh (mulf (subf (broadcast S128x2048 (Scalar.ofBits .f32 0x3F800000#32)) z) c))
          (broadcastTo S128x2048 (shapeCast S1x2048 x8 shapeCasts_S1x2048_S1x2048) broadcasts_S1x2048_S128x2048))
        0x00000000#32 reduces_S128x2048_S128 (.inl rfl) rfl) shapeCasts_S128_S128x1 (ix2 p 0)
      + broadcastTo S128x1 (shapeCast S1x1 x9 shapeCasts_S1x1_S1x1) broadcasts_S1x1_S128x1 (ix2 p 0) = _
  rw [Cert.Layout.cast_col (a := 128) _ shapeCasts_S128_S128x1 p 0,
    Cert.Lib.Rows.broadcastTo_row_apply (R := 128) (C := 1) _ broadcasts_S1x1_S128x1 p 0, shapeCast_self, shapeCast_self]
  refine congrArg (· + x9 (ix2 0 0)) ?_
  refine (Ideal.multiReduction_add_single _ 0x00000000#32 reduces_S128x2048_S128 (.inl rfl) rfl (ix1 p)).trans ?_
  refine Finset.sum_congr rfl fun (k : Fin 2048) _ => ?_
  rw [lane_lift p k]
  show (zh (ix2 p k) + (one - z (ix2 p k)) * c (ix2 p k))
      * broadcastTo S128x2048 x8 broadcasts_S1x2048_S128x2048 (ix2 p k) = _
  rw [Cert.Lib.Rows.broadcastTo_row_apply (R := 128) (C := 2048) x8 broadcasts_S1x2048_S128x2048 p k]

/-! ## The tile's row -/

/-- The value the body stores, at row `p` of the tile: the cell's read-out of row `p` of the input and hidden-state
    tiles, with each gate's weights the matching columns of the joined matrices. -/
theorem tile_row (x0 : Vec Ideal S128x128 .bf16) (x1 : Vec Ideal S128x2048 .f32) (x2 : Vec Ideal S128x6144 .bf16)
    (x3 : Vec Ideal S2048x4096 .bf16) (x4 : Vec Ideal S2048x2048 .bf16) (x5 x6 x7 x8 : Vec Ideal S1x2048 .f32)
    (x9 : Vec Ideal S1x1 .f32) (p : Fin 128) :
    k0_pay1 (k0_pay4 x0 x1 x2 x3 x5) (k0_pay5 x0 x1 x2 x3 x6 x4 x7) (k0_pay6 x0 x1 x2 x3 x5)
        (Scalar.ofBits .f32 0x3F800000#32) x8 x9 (ix2 p 0)
      = readout (fun k => x0 (ix2 p k)) (fun k => x1 (ix2 p k))
          (fun k j => x2 (ix2 k (col3 0 (by omega) j))) (fun k j => x3 (ix2 k (col2 0 (by omega) j))) (fun j => x5 (ix2 0 j))
          (fun k j => x2 (ix2 k (col3 2048 (by omega) j))) (fun k j => x3 (ix2 k (col2 2048 (by omega) j))) (fun j => x6 (ix2 0 j))
          (fun k j => x2 (ix2 k (col3 4096 (by omega) j))) (fun k j => x4 (ix2 k j)) (fun j => x7 (ix2 0 j))
          (fun k => x8 (ix2 0 k)) (x9 (ix2 0 0)) := by
  have hz : k0_pay4 x0 x1 x2 x3 x5
      = gateVec 0 0 slices_S128x6144_o0_0_S128x2048 slices_S128x4096_o0_0_S128x2048 x0 x1 x2 x3 x5 := rfl
  have hc : k0_pay5 x0 x1 x2 x3 x6 x4 x7
      = candVec (gateVec 2048 2048 slices_S128x6144_o0_2048_S128x2048 slices_S128x4096_o0_2048_S128x2048 x0 x1 x2 x3 x6)
          x0 x1 x2 x4 x7 := rfl
  have hzh : k0_pay6 x0 x1 x2 x3 x5 = mulf (k0_pay4 x0 x1 x2 x3 x5) x1 := rfl
  rw [store_apply, hzh, hc, hz]
  unfold readout blend
  refine congrArg (· + x9 (ix2 0 0)) ?_
  refine Finset.sum_congr rfl fun k _ => ?_
  rw [candVec_apply]
  show (gateVec 0 0 slices_S128x6144_o0_0_S128x2048 slices_S128x4096_o0_0_S128x2048 x0 x1 x2 x3 x5 (ix2 p k) * x1 (ix2 p k)
      + (one - gateVec 0 0 slices_S128x6144_o0_0_S128x2048 slices_S128x4096_o0_0_S128x2048 x0 x1 x2 x3 x5 (ix2 p k)) * _) * x8 (ix2 0 k) = _
  rw [gateVec_apply 0 0 (by omega) (by omega)]
  simp only [gateVec_apply 2048 2048 (by omega) (by omega)]

end Cert.KernelIdeal.Tile

end
-- ==== Proof.WholeValue.lean ====
/-
  The call's result array as one function of the program's arguments.

  What the call finds in the buffers it stages: the input and the candidate's hidden-side matrix are the arguments
  themselves (a change of float format is the identity on the extended reals); the three input-side matrices side
  by side and the two hidden-side gate matrices side by side are joins along the columns; the bias rows and the
  read-out row are the bias vectors and the read-out column laid out as rows. Tile `t` of the grid stages rows
  128·t … 128·t + 127 of the input and of the hidden state, and every weight whole; so by the tile lemma what tile
  `t` writes back is rows 128·t … 128·t + 127 of `Cert.Gru.cellOut` of the arguments. The 256 tiles' output
  blocks cover the 32768 rows (row `r` lies in tile `r / 128`), so after the run the result array IS `cellOut`
  of the arguments, and the arguments are as launched.
-/
import proofs.«142461_j62551903699450_2_alg».proof.Proof.CellIdeal
import proofs.«142461_j62551903699450_2_alg».proof.Proof.TileValue
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Facts₀ Cert.KernelIdeal.Cell Cert.KernelIdeal.Tile Cert.Gru
open Cert.KernelIdeal.Gen (hostOps0 flush0_10 N_0)

variable (m : (ℓ : Loc nD τ sig) → Buf (Elt Ideal) ℓ) (ρ : Dev nD → PrngReg)

/-! ## What the host lines leave in the buffers the call stages -/

theorem found_x (c : Dev nD) : @Eq (S32768x128.Idx → EReal) (V m c main_v0)
    (truncf (F := Ideal) (φ := .f32) .bf16 (m ((c : Thread nD τ).loc main_arg0)) bitsLt_bf16_f32) := by
  dsimp only [V, hostOps0]; after_results; all_goals rfl

theorem found_wx (c : Dev nD) : @Eq (S128x6144.Idx → EReal) (V m c main_v2)
    (truncf (F := Ideal) (φ := .f32) .bf16 (concatenate S128x6144 1 [⟨S128x2048, m ((c : Thread nD τ).loc main_arg2)⟩,
        ⟨S128x2048, m ((c : Thread nD τ).loc main_arg5)⟩, ⟨S128x2048, m ((c : Thread nD τ).loc main_arg8)⟩]
        concatenates_S128x2048_S128x2048_S128x2048_S128x6144_d1) bitsLt_bf16_f32) := by
  dsimp only [V, hostOps0]; after_results; all_goals rfl

theorem found_wh (c : Dev nD) : @Eq (S2048x4096.Idx → EReal) (V m c main_v4)
    (truncf (F := Ideal) (φ := .f32) .bf16 (concatenate S2048x4096 1 [⟨S2048x2048, m ((c : Thread nD τ).loc main_arg3)⟩,
        ⟨S2048x2048, m ((c : Thread nD τ).loc main_arg6)⟩]
        concatenates_S2048x2048_S2048x2048_S2048x4096_d1) bitsLt_bf16_f32) := by
  dsimp only [V, hostOps0]; after_results; all_goals rfl

theorem found_whh (c : Dev nD) : @Eq (S2048x2048.Idx → EReal) (V m c main_v5)
    (truncf (F := Ideal) (φ := .f32) .bf16 (m ((c : Thread nD τ).loc main_arg9)) bitsLt_bf16_f32) := by
  dsimp only [V, hostOps0]; after_results; all_goals rfl

theorem found_bz (c : Dev nD) : @Eq (S1x2048.Idx → EReal) (V m c main_v6)
    (shapeCast S1x2048 (m ((c : Thread nD τ).loc main_arg4)) shapeCasts_S2048_S1x2048) := by
  dsimp only [V, hostOps0]; after_results; all_goals rfl

theorem found_br (c : Dev nD) : @Eq (S1x2048.Idx → EReal) (V m c main_v7)
    (shapeCast S1x2048 (m ((c : Thread nD τ).loc main_arg7)) shapeCasts_S2048_S1x2048) := by
  dsimp only [V, hostOps0]; after_results; all_goals rfl

theorem found_bh (c : Dev nD) : @Eq (S1x2048.Idx → EReal) (V m c main_v8)
    (shapeCast S1x2048 (m ((c : Thread nD τ).loc main_arg10)) shapeCasts_S2048_S1x2048) := by
  dsimp only [V, hostOps0]; after_results; all_goals rfl

theorem found_wq (c : Dev nD) : @Eq (S1x2048.Idx → EReal) (V m c main_v9)
    (shapeCast S1x2048 (m ((c : Thread nD τ).loc main_arg11)) shapeCasts_S2048x1_S1x2048) := by
  dsimp only [V, hostOps0]; after_results; all_goals rfl

theorem found_bq (c : Dev nD) : @Eq (S1x1.Idx → EReal) (V m c main_v10)
    (shapeCast S1x1 (m ((c : Thread nD τ).loc main_arg12)) shapeCasts_S1_S1x1) := by
  dsimp only [V, hostOps0]; after_results; all_goals rfl

/-! ## Where each window's block sits -/

/-- The grid has 256 tiles of 128 rows: row `p` of tile `t` is a row of the batch. -/
theorem row_lt (t : Fin cfg0.N) (p : Fin 128) : t.val * 128 + p.val < 32768 := by
  have ht : t.val < 256 := lt_of_lt_of_eq t.isLt N_0
  have := p.isLt
  omega

/-! The printed index maps, decided over the grid: the input, the hidden state and the output move with the tile
    along the rows; every other window stays at block (0, 0). -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)

/-! A block's coordinate is its block index times the block's extent plus the coordinate inside the block. -/
theorem at_0 (t : Fin cfg0.N) (p : Fin 128) (b : Fin 128) :
    ((cfg0.win 0).blk t).view.emb (ix2 p b) = ix2 (⟨t.val * 128 + p.val, row_lt t p⟩ : Fin 32768) b := by
  obtain ⟨e0, e1⟩ := idx_0 t
  funext ax; apply Fin.ext
  match ax with
  | ⟨0, _⟩ => show win0_0.index t (0 : Fin 2) * 128 + 1 * p.val = t.val * 128 + p.val; rw [e0]; omega
  | ⟨1, _⟩ => show win0_0.index t (1 : Fin 2) * 128 + 1 * b.val = b.val; rw [e1]; omega
theorem at_1 (t : Fin cfg0.N) (p : Fin 128) (b : Fin 2048) :
    ((cfg0.win 1).blk t).view.emb (ix2 p b) = ix2 (⟨t.val * 128 + p.val, row_lt t p⟩ : Fin 32768) b := by
  obtain ⟨e0, e1⟩ := idx_1 t
  funext ax; apply Fin.ext
  match ax with
  | ⟨0, _⟩ => show win0_1.index t (0 : Fin 2) * 128 + 1 * p.val = t.val * 128 + p.val; rw [e0]; omega
  | ⟨1, _⟩ => show win0_1.index t (1 : Fin 2) * 2048 + 1 * b.val = b.val; rw [e1]; omega
theorem at_10 (t : Fin cfg0.N) (p : Fin 128) (b : Fin 1) :
    ((cfg0.win 10).blk t).view.emb (ix2 p b) = ix2 (⟨t.val * 128 + p.val, row_lt t p⟩ : Fin 32768) b := by
  obtain ⟨e0, e1⟩ := idx_10 t
  funext ax; apply Fin.ext
  match ax with
  | ⟨0, _⟩ => show win0_10.index t (0 : Fin 2) * 128 + 1 * p.val = t.val * 128 + p.val; rw [e0]; omega
  | ⟨1, _⟩ => show win0_10.index t (1 : Fin 2) * 1 + 1 * b.val = b.val; rw [e1]; omega
theorem at_2 (t : Fin cfg0.N) (a : Fin 128) (b : Fin 6144) :
    ((cfg0.win 2).blk t).view.emb (ix2 a b) = ix2 a b := by
  obtain ⟨e0, e1⟩ := idx_2 t
  funext ax; apply Fin.ext
  match ax with
  | ⟨0, _⟩ => show win0_2.index t (0 : Fin 2) * 128 + 1 * a.val = a.val; rw [e0]; omega
  | ⟨1, _⟩ => show win0_2.index t (1 : Fin 2) * 6144 + 1 * b.val = b.val; rw [e1]; omega
theorem at_3 (t : Fin cfg0.N) (a : Fin 2048) (b : Fin 4096) :
    ((cfg0.win 3).blk t).view.emb (ix2 a b) = ix2 a b := by
  obtain ⟨e0, e1⟩ := idx_3 t
  funext ax; apply Fin.ext
  match ax with
  | ⟨0, _⟩ => show win0_3.index t (0 : Fin 2) * 2048 + 1 * a.val = a.val; rw [e0]; omega
  | ⟨1, _⟩ => show win0_3.index t (1 : Fin 2) * 4096 + 1 * b.val = b.val; rw [e1]; omega
theorem at_4 (t : Fin cfg0.N) (a : Fin 2048) (b : Fin 2048) :
    ((cfg0.win 4).blk t).view.emb (ix2 a b) = ix2 a b := by
  obtain ⟨e0, e1⟩ := idx_4 t
  funext ax; apply Fin.ext
  match ax with
  | ⟨0, _⟩ => show win0_4.index t (0 : Fin 2) * 2048 + 1 * a.val = a.val; rw [e0]; omega
  | ⟨1, _⟩ => show win0_4.index t (1 : Fin 2) * 2048 + 1 * b.val = b.val; rw [e1]; omega
theorem at_5 (t : Fin cfg0.N) (a : Fin 1) (b : Fin 2048) :
    ((cfg0.win 5).blk t).view.emb (ix2 a b) = ix2 a b := by
  obtain ⟨e0, e1⟩ := idx_5 t
  funext ax; apply Fin.ext
  match ax with
  | ⟨0, _⟩ => show win0_5.index t (0 : Fin 2) * 1 + 1 * a.val = a.val; rw [e0]; omega
  | ⟨1, _⟩ => show win0_5.index t (1 : Fin 2) * 2048 + 1 * b.val = b.val; rw [e1]; omega
theorem at_6 (t : Fin cfg0.N) (a : Fin 1) (b : Fin 2048) :
    ((cfg0.win 6).blk t).view.emb (ix2 a b) = ix2 a b := by
  obtain ⟨e0, e1⟩ := idx_6 t
  funext ax; apply Fin.ext
  match ax with
  | ⟨0, _⟩ => show win0_6.index t (0 : Fin 2) * 1 + 1 * a.val = a.val; rw [e0]; omega
  | ⟨1, _⟩ => show win0_6.index t (1 : Fin 2) * 2048 + 1 * b.val = b.val; rw [e1]; omega
theorem at_7 (t : Fin cfg0.N) (a : Fin 1) (b : Fin 2048) :
    ((cfg0.win 7).blk t).view.emb (ix2 a b) = ix2 a b := by
  obtain ⟨e0, e1⟩ := idx_7 t
  funext ax; apply Fin.ext
  match ax with
  | ⟨0, _⟩ => show win0_7.index t (0 : Fin 2) * 1 + 1 * a.val = a.val; rw [e0]; omega
  | ⟨1, _⟩ => show win0_7.index t (1 : Fin 2) * 2048 + 1 * b.val = b.val; rw [e1]; omega
theorem at_8 (t : Fin cfg0.N) (a : Fin 1) (b : Fin 2048) :
    ((cfg0.win 8).blk t).view.emb (ix2 a b) = ix2 a b := by
  obtain ⟨e0, e1⟩ := idx_8 t
  funext ax; apply Fin.ext
  match ax with
  | ⟨0, _⟩ => show win0_8.index t (0 : Fin 2) * 1 + 1 * a.val = a.val; rw [e0]; omega
  | ⟨1, _⟩ => show win0_8.index t (1 : Fin 2) * 2048 + 1 * b.val = b.val; rw [e1]; omega
theorem at_9 (t : Fin cfg0.N) (a : Fin 1) (b : Fin 1) :
    ((cfg0.win 9).blk t).view.emb (ix2 a b) = ix2 a b := by
  obtain ⟨e0, e1⟩ := idx_9 t
  funext ax; apply Fin.ext
  match ax with
  | ⟨0, _⟩ => show win0_9.index t (0 : Fin 2) * 1 + 1 * a.val = a.val; rw [e0]; omega
  | ⟨1, _⟩ => show win0_9.index t (1 : Fin 2) * 1 + 1 * b.val = b.val; rw [e1]; omega

/-! ## Each window's block read at the arguments -/

theorem blk_x (c : Dev nD) (t : Fin cfg0.N) (p : Fin 128) (k : Fin 128) :
    iblk m c 0 t (ix2 p k) = m ((c : Thread nD τ).loc main_arg0) (ix2 (⟨t.val * 128 + p.val, row_lt t p⟩ : Fin 32768) k) := by
  show V m c main_v0 (((cfg0.win 0).blk t).view.emb (ix2 p k)) = _
  rw [at_0]
  exact congrFun (found_x m c) _

theorem blk_h (c : Dev nD) (t : Fin cfg0.N) (p : Fin 128) (k : Fin 2048) :
    iblk m c 1 t (ix2 p k) = m ((c : Thread nD τ).loc main_arg1) (ix2 (⟨t.val * 128 + p.val, row_lt t p⟩ : Fin 32768) k) := by
  show V m c main_arg1 (((cfg0.win 1).blk t).view.emb (ix2 p k)) = _
  rw [at_1, V_main_arg1]

theorem blk_wxz (c : Dev nD) (t : Fin cfg0.N) (k : Fin 128) (j : Fin 2048) :
    iblk m c 2 t (ix2 k (col3 0 (by omega) j)) = m ((c : Thread nD τ).loc main_arg2) (ix2 k j) := by
  show V m c main_v2 (((cfg0.win 2).blk t).view.emb (ix2 k (col3 0 (by omega) j))) = _
  rw [at_2, show col3 0 (by omega) j = (⟨j.val, by have := j.isLt; omega⟩ : Fin 6144) from Fin.ext (Nat.zero_add _)]
  refine (congrFun (found_wx m c) _).trans ?_
  exact Cert.Lib.Cols.concat3_cols_fst (α := EReal) (K := 128) (N₁ := 2048) (N₂ := 2048) (N₃ := 2048) (N := 6144) (m ((c : Thread nD τ).loc main_arg2)) (m ((c : Thread nD τ).loc main_arg5)) (m ((c : Thread nD τ).loc main_arg8))
    concatenates_S128x2048_S128x2048_S128x2048_S128x6144_d1 k j (by have := j.isLt; omega)

theorem blk_wxr (c : Dev nD) (t : Fin cfg0.N) (k : Fin 128) (j : Fin 2048) :
    iblk m c 2 t (ix2 k (col3 2048 (by omega) j)) = m ((c : Thread nD τ).loc main_arg5) (ix2 k j) := by
  show V m c main_v2 (((cfg0.win 2).blk t).view.emb (ix2 k (col3 2048 (by omega) j))) = _
  rw [at_2]
  refine (congrFun (found_wx m c) _).trans ?_
  exact Cert.Lib.Cols.concat3_cols_snd (α := EReal) (K := 128) (N₁ := 2048) (N₂ := 2048) (N₃ := 2048) (N := 6144) (m ((c : Thread nD τ).loc main_arg2)) (m ((c : Thread nD τ).loc main_arg5)) (m ((c : Thread nD τ).loc main_arg8))
    concatenates_S128x2048_S128x2048_S128x2048_S128x6144_d1 k j (by have := j.isLt; omega)

theorem blk_wxh (c : Dev nD) (t : Fin cfg0.N) (k : Fin 128) (j : Fin 2048) :
    iblk m c 2 t (ix2 k (col3 4096 (by omega) j)) = m ((c : Thread nD τ).loc main_arg8) (ix2 k j) := by
  show V m c main_v2 (((cfg0.win 2).blk t).view.emb (ix2 k (col3 4096 (by omega) j))) = _
  rw [at_2]
  refine (congrFun (found_wx m c) _).trans ?_
  exact Cert.Lib.Cols.concat3_cols_thd (α := EReal) (K := 128) (N₁ := 2048) (N₂ := 2048) (N₃ := 2048) (N := 6144) (m ((c : Thread nD τ).loc main_arg2)) (m ((c : Thread nD τ).loc main_arg5)) (m ((c : Thread nD τ).loc main_arg8))
    concatenates_S128x2048_S128x2048_S128x2048_S128x6144_d1 k j (by have := j.isLt; omega)

theorem blk_whz (c : Dev nD) (t : Fin cfg0.N) (k : Fin 2048) (j : Fin 2048) :
    iblk m c 3 t (ix2 k (col2 0 (by omega) j)) = m ((c : Thread nD τ).loc main_arg3) (ix2 k j) := by
  show V m c main_v4 (((cfg0.win 3).blk t).view.emb (ix2 k (col2 0 (by omega) j))) = _
  rw [at_3, show col2 0 (by omega) j = (⟨j.val, by have := j.isLt; omega⟩ : Fin 4096) from Fin.ext (Nat.zero_add _)]
  refine (congrFun (found_wh m c) _).trans ?_
  exact Cert.Lib.Cols.concat2_cols_fst (α := EReal) (K := 2048) (N₁ := 2048) (N₂ := 2048) (N := 4096) (m ((c : Thread nD τ).loc main_arg3)) (m ((c : Thread nD τ).loc main_arg6))
    concatenates_S2048x2048_S2048x2048_S2048x4096_d1 k j (by have := j.isLt; omega)

theorem blk_whr (c : Dev nD) (t : Fin cfg0.N) (k : Fin 2048) (j : Fin 2048) :
    iblk m c 3 t (ix2 k (col2 2048 (by omega) j)) = m ((c : Thread nD τ).loc main_arg6) (ix2 k j) := by
  show V m c main_v4 (((cfg0.win 3).blk t).view.emb (ix2 k (col2 2048 (by omega) j))) = _
  rw [at_3]
  refine (congrFun (found_wh m c) _).trans ?_
  exact Cert.Lib.Cols.concat2_cols_snd (α := EReal) (K := 2048) (N₁ := 2048) (N₂ := 2048) (N := 4096) (m ((c : Thread nD τ).loc main_arg3)) (m ((c : Thread nD τ).loc main_arg6))
    concatenates_S2048x2048_S2048x2048_S2048x4096_d1 k j (by have := j.isLt; omega)

theorem blk_whh (c : Dev nD) (t : Fin cfg0.N) (k : Fin 2048) (j : Fin 2048) :
    iblk m c 4 t (ix2 k j) = m ((c : Thread nD τ).loc main_arg9) (ix2 k j) := by
  show V m c main_v5 (((cfg0.win 4).blk t).view.emb (ix2 k j)) = _
  rw [at_4]
  exact congrFun (found_whh m c) _

theorem blk_bz (c : Dev nD) (t : Fin cfg0.N) (j : Fin 2048) :
    iblk m c 5 t (ix2 0 j) = m ((c : Thread nD τ).loc main_arg4) (ix1 j) := by
  show V m c main_v6 (((cfg0.win 5).blk t).view.emb (ix2 0 j)) = _
  rw [at_5]
  refine (congrFun (found_bz m c) _).trans ?_
  exact Cert.Lib.Rows.shapeCast_vec_row_apply (α := EReal) (C := 2048) (m ((c : Thread nD τ).loc main_arg4)) shapeCasts_S2048_S1x2048 j

theorem blk_br (c : Dev nD) (t : Fin cfg0.N) (j : Fin 2048) :
    iblk m c 6 t (ix2 0 j) = m ((c : Thread nD τ).loc main_arg7) (ix1 j) := by
  show V m c main_v7 (((cfg0.win 6).blk t).view.emb (ix2 0 j)) = _
  rw [at_6]
  refine (congrFun (found_br m c) _).trans ?_
  exact Cert.Lib.Rows.shapeCast_vec_row_apply (α := EReal) (C := 2048) (m ((c : Thread nD τ).loc main_arg7)) shapeCasts_S2048_S1x2048 j

theorem blk_bh (c : Dev nD) (t : Fin cfg0.N) (j : Fin 2048) :
    iblk m c 7 t (ix2 0 j) = m ((c : Thread nD τ).loc main_arg10) (ix1 j) := by
  show V m c main_v8 (((cfg0.win 7).blk t).view.emb (ix2 0 j)) = _
  rw [at_7]
  refine (congrFun (found_bh m c) _).trans ?_
  exact Cert.Lib.Rows.shapeCast_vec_row_apply (α := EReal) (C := 2048) (m ((c : Thread nD τ).loc main_arg10)) shapeCasts_S2048_S1x2048 j

theorem blk_wq (c : Dev nD) (t : Fin cfg0.N) (k : Fin 2048) :
    iblk m c 8 t (ix2 0 k) = m ((c : Thread nD τ).loc main_arg11) (ix2 k 0) := by
  show V m c main_v9 (((cfg0.win 8).blk t).view.emb (ix2 0 k)) = _
  rw [at_8]
  refine (congrFun (found_wq m c) _).trans ?_
  exact Cert.Lib.Cols.shapeCast_col_row_apply (α := EReal) (C := 2048) (m ((c : Thread nD τ).loc main_arg11)) shapeCasts_S2048x1_S1x2048 k

theorem blk_bq (c : Dev nD) (t : Fin cfg0.N) :
    iblk m c 9 t (ix2 0 0) = m ((c : Thread nD τ).loc main_arg12) (ix1 0) := by
  show V m c main_v10 (((cfg0.win 9).blk t).view.emb (ix2 0 0)) = _
  rw [at_9]
  refine (congrFun (found_bq m c) _).trans ?_
  exact Cert.Lib.Rows.shapeCast_vec_row_apply (α := EReal) (C := 1) (m ((c : Thread nD τ).loc main_arg12)) shapeCasts_S1_S1x1 0

/-! ## What a tile writes back -/

theorem origin : (![0, 0] : Fin 2 → Nat) = fun _ => 0 := funext fun a => by fin_cases a <;> rfl

/-- The result array as the run leaves it: `cellOut` of the arguments as launched. -/
abbrev result (c : Dev nD) : S32768x1.Idx → EReal :=
  cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Tile `t` writes back rows 128·t … 128·t + 127 of `result`. -/
theorem flushed_eq (c : Dev nD) (t : Fin cfg0.N) :
    (dats m 0 c).flushed 10 t = ((cfg0.win 10).blk t).view.read (Elt Ideal) (result m c) := by
  show (cfg0.win 10).cut (grid0.coords t) ((dats m 0 c).after 10 t) = _
  rw [after_10]
  unfold rowOut
  rw [View.canon_unit_zero origin]
  simp only [View.ld_unit_zero (S := S128x128) origin, View.ld_unit_zero (S := S128x2048) origin,
    View.ld_unit_zero (S := S128x6144) origin, View.ld_unit_zero (S := S2048x4096) origin,
    View.ld_unit_zero (S := S2048x2048) origin, View.ld_unit_zero (S := S1x2048) origin,
    View.ld_unit_zero (S := S1x1) origin]
  funext y
  obtain ⟨p, q, rfl⟩ : ∃ (p : Fin 128) (q : Fin 1), y = ix2 p q := ⟨y 0, y 1, eq_ix2 y⟩
  obtain rfl : q = 0 := Subsingleton.elim _ _
  refine (tile_row (iblk m c 0 t) (iblk m c 1 t) (iblk m c 2 t) (iblk m c 3 t) (iblk m c 4 t) (iblk m c 5 t)
    (iblk m c 6 t) (iblk m c 7 t) (iblk m c 8 t) (iblk m c 9 t) p).trans ?_
  show _ = result m c (((cfg0.win 10).blk t).view.emb (ix2 p 0))
  rw [at_10]
  show _ = rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨t.val * 128 + p.val, row_lt t p⟩
  unfold rowOf
  simp only [blk_x, blk_h, blk_wxz, blk_wxr, blk_wxh, blk_whz, blk_whr, blk_whh, blk_bz, blk_br, blk_bh, blk_wq, blk_bq]

/-! ## The tiles cover the rows -/

theorem mem_blk (t : Fin cfg0.N) (i : S32768x1.Idx) :
    i ∈ ((cfg0.win 10).blk t).view.set ↔ ∀ a : Fin 2, win0_10.index t a * S128x1.size a ≤ (i a).val
      ∧ (i a).val < win0_10.index t a * S128x1.size a + S128x1.size a := by
  show i ∈ ((View.whole main_v11).slice (win0_10.rect t)).set ↔ _
  rw [View.set_slice_whole, Rect.mem_set_unit]
  exact Iff.rfl

/-- Row `r` is in tile `r / 128`. -/
theorem cover (i : S32768x1.Idx) :
    ∃ t : Fin cfg0.N, (cfg0.win 10).flush t = true ∧ i ∈ ((cfg0.win 10).blk t).view.set := by
  have hi0 : (i 0).val < 32768 := (i 0).isLt
  have hi1 : (i 1).val < 1 := (i 1).isLt
  obtain ⟨t, ht⟩ : ∃ t : Fin cfg0.N, t.val = (i 0).val / 128 :=
    ⟨⟨(i 0).val / 128, lt_of_lt_of_eq (by omega : (i 0).val / 128 < 256) N_0.symm⟩, rfl⟩
  obtain ⟨e0, e1⟩ := idx_10 t
  refine ⟨t, flush0_10 t, ?_⟩
  rw [mem_blk]
  intro a
  match a with
  | ⟨0, _⟩ =>
    show win0_10.index t (0 : Fin 2) * 128 ≤ (i 0).val ∧ (i 0).val < win0_10.index t (0 : Fin 2) * 128 + 128
    rw [e0, ht]; omega
  | ⟨1, _⟩ =>
    show win0_10.index t (1 : Fin 2) * 1 ≤ (i 1).val ∧ (i 1).val < win0_10.index t (1 : Fin 2) * 1 + 1
    rw [e1]; omega

/-- After the run the result array is `result`. -/
theorem final (c : Dev nD) : (dats m 0 c).arrAt 10 cfg0.N = result m c :=
  (dats m 0 c).arrAt_eq_of_cover 10 (result m c) (fun t _ => flushed_eq m c t) (cover)

/-! ## The run, read -/

/-- Every weakly fair execution of the idealized kernel program terminates with the result array at `result` and the
    arguments as launched. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 10).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.Whole

end
-- ==== Proof.RefValue.lean ====
/-
  The reference program's result, read at a row, is the cell's read-out of that row.

  The reference computes each gate as 1 / (1 + e^(−a)) of the row's two projections plus the bias — on the extended
  reals that quotient IS the logistic function —, the candidate as tanh of the input projection plus the
  projection of the reset-gated state plus the bias, blends, and takes the product with the read-out column as a
  matrix product with one output column. Each matrix product, read at an index, is the sum over the contracted
  index; each bias, spread over the rows, reads the bias vector at the unit. Term by term this is
  `Cert.Gru.rowOf` of the arguments, so the whole result is `Cert.Gru.cellOut`.
-/
import proofs.«142461_j62551903699450_2_alg».proof.Proof.Gen.ReferenceIdeal.Read
import proofs.«142461_j62551903699450_2_alg».proof.Proof.Spec
import Idealize.ShloMosaic.Lib.ValueIdx

noncomputable section

namespace Cert.ReferenceIdeal.Cell

open Idealize.ShloMosaic Idealize.ShloMosaic.ValueIdx
open Cert.ReferenceIdeal Cert.ReferenceIdeal.Read Cert.Gru

/-! ## The generated index functions at (row, unit) -/

theorem l_v0 (r : Fin 32768) (j : Fin 2048) (k : Fin 128) : lidx_main_v0 (ix2 r j) k = ix2 r k := funext fun a => Fin.ext (by match a with | ⟨0, _⟩ => rfl | ⟨1, _⟩ => rfl)
theorem r_v0 (r : Fin 32768) (j : Fin 2048) (k : Fin 128) : ridx_main_v0 (ix2 r j) k = ix2 k j := funext fun a => Fin.ext (by match a with | ⟨0, _⟩ => rfl | ⟨1, _⟩ => rfl)
theorem l_v1 (r : Fin 32768) (j : Fin 2048) (k : Fin 2048) : lidx_main_v1 (ix2 r j) k = ix2 r k := funext fun a => Fin.ext (by match a with | ⟨0, _⟩ => rfl | ⟨1, _⟩ => rfl)
theorem r_v1 (r : Fin 32768) (j : Fin 2048) (k : Fin 2048) : ridx_main_v1 (ix2 r j) k = ix2 k j := funext fun a => Fin.ext (by match a with | ⟨0, _⟩ => rfl | ⟨1, _⟩ => rfl)
theorem l_v12 (r : Fin 32768) (j : Fin 2048) (k : Fin 128) : lidx_main_v12 (ix2 r j) k = ix2 r k := funext fun a => Fin.ext (by match a with | ⟨0, _⟩ => rfl | ⟨1, _⟩ => rfl)
theorem r_v12 (r : Fin 32768) (j : Fin 2048) (k : Fin 128) : ridx_main_v12 (ix2 r j) k = ix2 k j := funext fun a => Fin.ext (by match a with | ⟨0, _⟩ => rfl | ⟨1, _⟩ => rfl)
theorem l_v13 (r : Fin 32768) (j : Fin 2048) (k : Fin 2048) : lidx_main_v13 (ix2 r j) k = ix2 r k := funext fun a => Fin.ext (by match a with | ⟨0, _⟩ => rfl | ⟨1, _⟩ => rfl)
theorem r_v13 (r : Fin 32768) (j : Fin 2048) (k : Fin 2048) : ridx_main_v13 (ix2 r j) k = ix2 k j := funext fun a => Fin.ext (by match a with | ⟨0, _⟩ => rfl | ⟨1, _⟩ => rfl)
theorem l_v24 (r : Fin 32768) (j : Fin 2048) (k : Fin 128) : lidx_main_v24 (ix2 r j) k = ix2 r k := funext fun a => Fin.ext (by match a with | ⟨0, _⟩ => rfl | ⟨1, _⟩ => rfl)
theorem r_v24 (r : Fin 32768) (j : Fin 2048) (k : Fin 128) : ridx_main_v24 (ix2 r j) k = ix2 k j := funext fun a => Fin.ext (by match a with | ⟨0, _⟩ => rfl | ⟨1, _⟩ => rfl)
theorem l_v26 (r : Fin 32768) (j : Fin 2048) (k : Fin 2048) : lidx_main_v26 (ix2 r j) k = ix2 r k := funext fun a => Fin.ext (by match a with | ⟨0, _⟩ => rfl | ⟨1, _⟩ => rfl)
theorem r_v26 (r : Fin 32768) (j : Fin 2048) (k : Fin 2048) : ridx_main_v26 (ix2 r j) k = ix2 k j := funext fun a => Fin.ext (by match a with | ⟨0, _⟩ => rfl | ⟨1, _⟩ => rfl)
theorem l_v37 (r : Fin 32768) (k : Fin 2048) : lidx_main_v37 (ix2 r (0 : Fin 1)) k = ix2 r k := funext fun a => Fin.ext (by match a with | ⟨0, _⟩ => rfl | ⟨1, _⟩ => rfl)
theorem r_v37 (r : Fin 32768) (k : Fin 2048) : ridx_main_v37 (ix2 r (0 : Fin 1)) k = ix2 k (0 : Fin 1) := funext fun a => Fin.ext (by match a with | ⟨0, _⟩ => rfl | ⟨1, _⟩ => rfl)
theorem b_v4 (r : Fin 32768) (j : Fin 2048) : idx_main_v3 (idx_main_v4 (ix2 r j)) = ix1 j := funext fun a => Fin.ext (by match a with | ⟨0, _⟩ => rfl)
theorem b_v16 (r : Fin 32768) (j : Fin 2048) : idx_main_v15 (idx_main_v16 (ix2 r j)) = ix1 j := funext fun a => Fin.ext (by match a with | ⟨0, _⟩ => rfl)
theorem b_v29 (r : Fin 32768) (j : Fin 2048) : idx_main_v28 (idx_main_v29 (ix2 r j)) = ix1 j := funext fun a => Fin.ext (by match a with | ⟨0, _⟩ => rfl)
theorem b_v39 (r : Fin 32768) : idx_main_v38 (idx_main_v39 (ix2 r (0 : Fin 1))) = ix1 (0 : Fin 1) := funext fun a => Fin.ext (by match a with | ⟨0, _⟩ => rfl)

/-! ## The gates -/

/-- The update gate at (r, j). -/
theorem update_gate (x0 : (⟨2, ![32768, 128]⟩ : Shape).Idx → EReal) (x1 : (⟨2, ![32768, 2048]⟩ : Shape).Idx → EReal) (x2 : (⟨2, ![128, 2048]⟩ : Shape).Idx → EReal) (x3 : (⟨2, ![2048, 2048]⟩ : Shape).Idx → EReal) (x4 : (⟨1, ![2048]⟩ : Shape).Idx → EReal) (r : Fin 32768) (j : Fin 2048) :
    val_main_v11 (F := Ideal) x0 x1 x2 x3 x4 (ix2 r j)
      = gate (fun k => x0 (ix2 r k)) (fun k => x1 (ix2 r k)) (fun k j => x2 (ix2 k j)) (fun k j => x3 (ix2 k j))
          (fun j => x4 (ix1 j)) j := by
  rw [val_main_v11_apply, val_main_v10_apply, val_main_cst_0_apply, val_main_v9_apply, val_main_v8_apply,
    val_main_cst_apply, val_main_v7_apply, val_main_v6_apply, val_main_v5_apply, val_main_v2_apply,
    val_main_v0_apply, val_main_v1_apply, val_main_v4_apply, val_main_v3_apply]
  simp only [l_v0, r_v0, l_v1, r_v1, b_v4]
  unfold gate
  rw [← logistic_spelt]
  rfl

/-- The reset gate at (r, j). -/
theorem reset_gate (x0 : (⟨2, ![32768, 128]⟩ : Shape).Idx → EReal) (x1 : (⟨2, ![32768, 2048]⟩ : Shape).Idx → EReal) (x5 : (⟨2, ![128, 2048]⟩ : Shape).Idx → EReal) (x6 : (⟨2, ![2048, 2048]⟩ : Shape).Idx → EReal) (x7 : (⟨1, ![2048]⟩ : Shape).Idx → EReal) (r : Fin 32768) (j : Fin 2048) :
    val_main_v23 (F := Ideal) x0 x1 x5 x6 x7 (ix2 r j)
      = gate (fun k => x0 (ix2 r k)) (fun k => x1 (ix2 r k)) (fun k j => x5 (ix2 k j)) (fun k j => x6 (ix2 k j))
          (fun j => x7 (ix1 j)) j := by
  rw [val_main_v23_apply, val_main_v22_apply, val_main_cst_2_apply, val_main_v21_apply, val_main_v20_apply,
    val_main_cst_1_apply, val_main_v19_apply, val_main_v18_apply, val_main_v17_apply, val_main_v14_apply,
    val_main_v12_apply, val_main_v13_apply, val_main_v16_apply, val_main_v15_apply]
  simp only [l_v12, r_v12, l_v13, r_v13, b_v16]
  unfold gate
  rw [← logistic_spelt]
  rfl

/-! ## The candidate -/

/-- The candidate state at (r, j), over row `r` of the reset gate. -/
theorem candidate (x0 : (⟨2, ![32768, 128]⟩ : Shape).Idx → EReal) (x1 : (⟨2, ![32768, 2048]⟩ : Shape).Idx → EReal) (x5 : (⟨2, ![128, 2048]⟩ : Shape).Idx → EReal) (x6 : (⟨2, ![2048, 2048]⟩ : Shape).Idx → EReal) (x7 : (⟨1, ![2048]⟩ : Shape).Idx → EReal) (x8 : (⟨2, ![128, 2048]⟩ : Shape).Idx → EReal) (x9 : (⟨2, ![2048, 2048]⟩ : Shape).Idx → EReal) (x10 : (⟨1, ![2048]⟩ : Shape).Idx → EReal) (r : Fin 32768) (j : Fin 2048) :
    val_main_v31 (F := Ideal) x0 x1 x5 x6 x7 x8 x9 x10 (ix2 r j)
      = cand (fun k => x0 (ix2 r k)) (fun k => x1 (ix2 r k))
          (gate (fun k => x0 (ix2 r k)) (fun k => x1 (ix2 r k)) (fun k j => x5 (ix2 k j)) (fun k j => x6 (ix2 k j)) (fun j => x7 (ix1 j)))
          (fun k j => x8 (ix2 k j)) (fun k j => x9 (ix2 k j)) (fun j => x10 (ix1 j)) j := by
  rw [val_main_v31_apply, val_main_v30_apply, val_main_v27_apply, val_main_v24_apply, val_main_v26_apply,
    val_main_v29_apply, val_main_v28_apply]
  simp only [l_v24, r_v24, l_v26, r_v26, b_v29, val_main_v25_apply, reset_gate]
  rfl

/-! ## The read-out -/

/-- The result at row `r`. -/
theorem result_row (x0 : (⟨2, ![32768, 128]⟩ : Shape).Idx → EReal) (x1 : (⟨2, ![32768, 2048]⟩ : Shape).Idx → EReal) (x2 : (⟨2, ![128, 2048]⟩ : Shape).Idx → EReal) (x3 : (⟨2, ![2048, 2048]⟩ : Shape).Idx → EReal) (x4 : (⟨1, ![2048]⟩ : Shape).Idx → EReal) (x5 : (⟨2, ![128, 2048]⟩ : Shape).Idx → EReal) (x6 : (⟨2, ![2048, 2048]⟩ : Shape).Idx → EReal) (x7 : (⟨1, ![2048]⟩ : Shape).Idx → EReal) (x8 : (⟨2, ![128, 2048]⟩ : Shape).Idx → EReal) (x9 : (⟨2, ![2048, 2048]⟩ : Shape).Idx → EReal) (x10 : (⟨1, ![2048]⟩ : Shape).Idx → EReal) (x11 : (⟨2, ![2048, 1]⟩ : Shape).Idx → EReal) (x12 : (⟨1, ![1]⟩ : Shape).Idx → EReal) (r : Fin 32768) :
    val_main_v40 (F := Ideal) x0 x1 x2 x3 x4 x5 x6 x7 x8 x9 x10 x11 x12 (ix2 r (0 : Fin 1)) = rowOf x0 x1 x2 x3 x4 x5 x6 x7 x8 x9 x10 x11 x12 r := by
  rw [val_main_v40_apply, val_main_v37_apply, val_main_v39_apply, val_main_v38_apply]
  simp only [l_v37, r_v37, b_v39, val_main_v36_apply, val_main_v32_apply, val_main_v35_apply, val_main_v34_apply,
    val_main_v33_apply, val_main_cst_3_apply, update_gate, candidate]
  rfl

/-- The reference's result is `cellOut` of its arguments. -/
theorem result_eq (x0 : (⟨2, ![32768, 128]⟩ : Shape).Idx → EReal) (x1 : (⟨2, ![32768, 2048]⟩ : Shape).Idx → EReal) (x2 : (⟨2, ![128, 2048]⟩ : Shape).Idx → EReal) (x3 : (⟨2, ![2048, 2048]⟩ : Shape).Idx → EReal) (x4 : (⟨1, ![2048]⟩ : Shape).Idx → EReal) (x5 : (⟨2, ![128, 2048]⟩ : Shape).Idx → EReal) (x6 : (⟨2, ![2048, 2048]⟩ : Shape).Idx → EReal) (x7 : (⟨1, ![2048]⟩ : Shape).Idx → EReal) (x8 : (⟨2, ![128, 2048]⟩ : Shape).Idx → EReal) (x9 : (⟨2, ![2048, 2048]⟩ : Shape).Idx → EReal) (x10 : (⟨1, ![2048]⟩ : Shape).Idx → EReal) (x11 : (⟨2, ![2048, 1]⟩ : Shape).Idx → EReal) (x12 : (⟨1, ![1]⟩ : Shape).Idx → EReal) :
    val_main_v40 (F := Ideal) x0 x1 x2 x3 x4 x5 x6 x7 x8 x9 x10 x11 x12 = cellOut x0 x1 x2 x3 x4 x5 x6 x7 x8 x9 x10 x11 x12 := by
  funext i
  obtain ⟨r, q, rfl⟩ : ∃ (r : Fin 32768) (q : Fin 1), i = ix2 r q := ⟨i 0, i 1, eq_ix2 i⟩
  obtain rfl : q = 0 := Subsingleton.elim _ _
  exact result_row x0 x1 x2 x3 x4 x5 x6 x7 x8 x9 x10 x11 x12 r

end Cert.ReferenceIdeal.Cell

end
-- ==== Proof.lean ====
/-
  A single step of a gated recurrent cell with a scalar read-out, as a TPU kernel and as plain array code: the
  certificate's five claims.

  The kernel program joins the weight matrices on the host and then runs one call over 256 tiles of 128 batch rows;
  its frame (for the program as printed, and for its idealization) is the run of that call with nothing kept between
  tiles. The idealization rewrote nothing, so it preserves the program trivially. On the extended reals both
  programs end with the same array: for each batch row the read-out of the blended state, `Cert.Gru.cellOut` of the
  thirteen arguments — the kernel because each tile writes its 128 rows of it and the tiles cover the batch, the
  reference because its operations, read at an index, are that term. No law of arithmetic joins the two sides
  (the sums are taken over the same index sets in the same grouping), so the finiteness of the inputs is not used.
-/
import proofs.«142461_j62551903699450_2_alg».proof.Defs
import proofs.«142461_j62551903699450_2_alg».proof.Proof.Gen.Kernel
import proofs.«142461_j62551903699450_2_alg».proof.Proof.Gen.KernelIdeal
import proofs.«142461_j62551903699450_2_alg».proof.Proof.Gen.ReferenceIdeal
import proofs.«142461_j62551903699450_2_alg».proof.Proof.Gen.Pre_finite_inputs
import proofs.«142461_j62551903699450_2_alg».proof.Proof.Gen.ReferenceIdeal.Run
import proofs.«142461_j62551903699450_2_alg».proof.Proof.Gen.ReferenceIdeal.Read
import proofs.«142461_j62551903699450_2_alg».proof.Proof.CellBits
import proofs.«142461_j62551903699450_2_alg».proof.Proof.CellIdeal
import proofs.«142461_j62551903699450_2_alg».proof.Proof.WholeValue
import proofs.«142461_j62551903699450_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Cell.frame m ρ

/-- So does its idealization. -/
theorem frame_kernel_ideal : Cert.frame_KernelIdeal := fun m ρ _ => Cert.KernelIdeal.Cell.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `cellOut` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v40_eq, Cert.ReferenceIdeal.Cell.result_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
